-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x256 : Shape := ⟨3, ![4096, 49, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S169x8 : Shape := ⟨2, ![169, 8]⟩
abbrev S49x49 : Shape := ⟨2, ![49, 49]⟩
abbrev S_ : Shape := ⟨0, ![]⟩

class Facts : Prop where
  bcast_S_S4096x49x256 : S_.BroadcastsInDim S4096x49x256 (![] : Fin 0 → Fin S4096x49x256.rank)
  reducesTo_S4096x49x256_S_d0_1_2 : S4096x49x256.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S169x8 : S_.BroadcastsInDim S169x8 (![] : Fin 0 → Fin S169x8.rank)
  reducesTo_S169x8_S_d0_1 : S169x8.ReducesTo [0, 1] S_

variable [Facts]

def fn_part1 {F : FTy → Type} [FloatOps F] (main_arg4 : FVec F S256 .f32) (main_arg5 : FVec F S169x8 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S169x8 .f32 := Host.absf main_arg5
  let main_cst_8 : FVec F S_ .f32 := constant S_ .f32 0x7F800000#32
  let main_v25 : FVec F S169x8 .f32 := broadcastInDim S169x8 ![] bcast_S_S169x8 main_cst_8
  let main_v26 : IVec S169x8 1 := cmpf .olt main_v24 main_v25
  let main_c_9 : IVec S_ 1 := constantI S_ 1 1#1
  let main_v27 : IVec S_ 1 := (fun x v => Host.reduce IntOp.andi x v reducesTo_S169x8_S_d0_1 h_S_) main_v26 main_c_9
  let main_v28 : IVec S_ 1 := andi main_v23 main_v27
  main_v28

def fn {F : FTy → Type} [FloatOps F] (main_arg0 : FVec F S4096x49x256 .f32) (main_arg1 : FVec F S768x256 .f32) (main_arg2 : FVec F S768 .f32) (main_arg3 : FVec F S256x256 .f32) (main_arg4 : FVec F S256 .f32) (main_arg5 : FVec F S169x8 .f32) (main_arg6 : IVec S49x49 32) : IVec S_ 1 :=
  let main_v0 : FVec F S4096x49x256 .f32 := Host.absf main_arg0
  let main_cst : FVec F S_ .f32 := constant S_ .f32 0x7F800000#32
  let main_v1 : FVec F S4096x49x256 .f32 := broadcastInDim S4096x49x256 ![] bcast_S_S4096x49x256 main_cst
  let main_v2 : IVec S4096x49x256 1 := cmpf .olt main_v0 main_v1
  let main_c : IVec S_ 1 := constantI S_ 1 1#1
  let main_v3 : IVec S_ 1 := (fun x v => Host.reduce IntOp.andi x v reducesTo_S4096x49x256_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S4096x49x256 : Shape := ⟨3, ![4096, 49, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S169x8 : Shape := ⟨2, ![169, 8]⟩
abbrev S49x49 : Shape := ⟨2, ![49, 49]⟩
abbrev S2401 : Shape := ⟨1, ![2401]⟩
abbrev S_ : Shape := ⟨0, ![]⟩
abbrev S2401x1 : Shape := ⟨2, ![2401, 1]⟩
abbrev S2401x8 : Shape := ⟨2, ![2401, 8]⟩
abbrev S49x49x8 : Shape := ⟨3, ![49, 49, 8]⟩
abbrev S8x49x49 : Shape := ⟨3, ![8, 49, 49]⟩
abbrev S256x768 : Shape := ⟨2, ![256, 768]⟩
abbrev S200704x256 : Shape := ⟨2, ![200704, 256]⟩
abbrev S3136x256 : Shape := ⟨2, ![3136, 256]⟩
abbrev S3136x768 : Shape := ⟨2, ![3136, 768]⟩
abbrev S1x768 : Shape := ⟨2, ![1, 768]⟩
abbrev S64x49x768 : Shape := ⟨3, ![64, 49, 768]⟩
abbrev S64x49x256 : Shape := ⟨3, ![64, 49, 256]⟩
abbrev S64x49x32 : Shape := ⟨3, ![64, 49, 32]⟩
abbrev S64x49x49 : Shape := ⟨3, ![64, 49, 49]⟩
abbrev S1x49x49 : Shape := ⟨3, ![1, 49, 49]⟩
abbrev S64x49 : Shape := ⟨2, ![64, 49]⟩
abbrev S64x49x1 : Shape := ⟨3, ![64, 49, 1]⟩
abbrev S1x256 : Shape := ⟨2, ![1, 256]⟩

abbrev nBuf : Space → Nat
  | .hbm => 24
  | .vmem => 9
  | .smem => 0
  | _ => 0

abbrev bufTy : (tb : Table) → Fin (tcTables nBuf tb) → BufTy
  | .hbm, ⟨0, _⟩ => ⟨S4096x49x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S169x8, .f32⟩
  | .hbm, ⟨6, _⟩ => ⟨S49x49, .i32⟩
  | .hbm, ⟨7, _⟩ => ⟨S2401, .i32⟩
  | .hbm, ⟨8, _⟩ => ⟨S_, .i32⟩
  | .hbm, ⟨9, _⟩ => ⟨S2401, .i32⟩
  | .hbm, ⟨10, _⟩ => ⟨S2401, .i1⟩
  | .hbm, ⟨11, _⟩ => ⟨S_, .i32⟩
  | .hbm, ⟨12, _⟩ => ⟨S2401, .i32⟩
  | .hbm, ⟨13, _⟩ => ⟨S2401, .i32⟩
  | .hbm, ⟨14, _⟩ => ⟨S2401, .i32⟩
  | .hbm, ⟨15, _⟩ => ⟨S2401x1, .i32⟩
  | .hbm, ⟨16, _⟩ => ⟨S2401x8, .f32⟩
  | .hbm, ⟨17, _⟩ => ⟨S49x49x8, .f32⟩
  | .hbm, ⟨18, _⟩ => ⟨S8x49x49, .f32⟩
  | .hbm, ⟨19, _⟩ => ⟨S256x768, .f32⟩
  | .hbm, ⟨20, _⟩ => ⟨S256x256, .f32⟩
  | .hbm, ⟨21, _⟩ => ⟨S200704x256, .f32⟩
  | .hbm, ⟨22, _⟩ => ⟨S200704x256, .f32⟩
  | .hbm, ⟨23, _⟩ => ⟨S4096x49x256, .f32⟩
  | .local _ .vmem, ⟨0, _⟩ => ⟨S3136x256, .f32⟩
  | .local _ .vmem, ⟨1, _⟩ => ⟨S3136x256, .f32⟩
  | .local _ .vmem, ⟨2, _⟩ => ⟨S256x768, .f32⟩
  | .local _ .vmem, ⟨3, _⟩ => ⟨S768, .f32⟩
  | .local _ .vmem, ⟨4, _⟩ => ⟨S8x49x49, .f32⟩
  | .local _ .vmem, ⟨5, _⟩ => ⟨S256x256, .f32⟩
  | .local _ .vmem, ⟨6, _⟩ => ⟨S256, .f32⟩
  | .local _ .vmem, ⟨7, _⟩ => ⟨S3136x256, .f32⟩
  | .local _ .vmem, ⟨8, _⟩ => ⟨S3136x256, .f32⟩
  | _, _ => ⟨S4096x49x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x49x49 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3136x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x8_S49x49x8 : S2401x8.ShapeCasts S49x49x8
  transposes_S49x49x8_S8x49x49_2_0_1 : S49x49x8.Transposes [2, 0, 1] S8x49x49
  transposes_S768x256_S256x768_1_0 : S768x256.Transposes [1, 0] S256x768
  transposes_S256x256_S256x256_1_0 : S256x256.Transposes [1, 0] S256x256
  shapeCasts_S4096x49x256_S200704x256 : S4096x49x256.ShapeCasts S200704x256
  inb_S3136x256_S3136x256_0_0 : ∀ a, (![0, 0] : Fin 2 → Nat) a + S3136x256.size a ≤ S3136x256.size a
  h_S3136x256 : 0 < S3136x256.numel
  shapeCasts_S3136x256_S3136x256 : S3136x256.ShapeCasts S3136x256
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S3136x768 : S1x768.Broadcasts S3136x768
  shapeCasts_S3136x768_S64x49x768 : S3136x768.ShapeCasts S64x49x768
  slices_S64x49x768_o0_0_0_S64x49x256 : S64x49x768.Slices ![0, 0, 0] S64x49x256
  slices_S64x49x768_o0_0_256_S64x49x256 : S64x49x768.Slices ![0, 0, 256] S64x49x256
  slices_S64x49x768_o0_0_512_S64x49x256 : S64x49x768.Slices ![0, 0, 512] S64x49x256
  slices_S64x49x256_o0_0_0_S64x49x32 : S64x49x256.Slices ![0, 0, 0] S64x49x32
  inb_S8x49x49_S1x49x49_0_0_0 : ∀ a, (![0, 0, 0] : Fin 3 → Nat) a + S1x49x49.size a ≤ S8x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S64x49x49 : S1x49x49.Broadcasts S64x49x49
  reduces_S64x49x49_S64x49 : S64x49x49.Reduces [2] S64x49
  shapeCasts_S64x49_S64x49x1 : S64x49.ShapeCasts S64x49x1
  broadcasts_S64x49x1_S64x49x49 : S64x49x1.Broadcasts S64x49x49
  slices_S64x49x256_o0_0_32_S64x49x32 : S64x49x256.Slices ![0, 0, 32] S64x49x32
  inb_S8x49x49_S1x49x49_1_0_0 : ∀ a, (![1, 0, 0] : Fin 3 → Nat) a + S1x49x49.size a ≤ S8x49x49.size a
  slices_S64x49x256_o0_0_64_S64x49x32 : S64x49x256.Slices ![0, 0, 64] S64x49x32
  inb_S8x49x49_S1x49x49_2_0_0 : ∀ a, (![2, 0, 0] : Fin 3 → Nat) a + S1x49x49.size a ≤ S8x49x49.size a
  slices_S64x49x256_o0_0_96_S64x49x32 : S64x49x256.Slices ![0, 0, 96] S64x49x32
  inb_S8x49x49_S1x49x49_3_0_0 : ∀ a, (![3, 0, 0] : Fin 3 → Nat) a + S1x49x49.size a ≤ S8x49x49.size a
  slices_S64x49x256_o0_0_128_S64x49x32 : S64x49x256.Slices ![0, 0, 128] S64x49x32
  inb_S8x49x49_S1x49x49_4_0_0 : ∀ a, (![4, 0, 0] : Fin 3 → Nat) a + S1x49x49.size a ≤ S8x49x49.size a
  slices_S64x49x256_o0_0_160_S64x49x32 : S64x49x256.Slices ![0, 0, 160] S64x49x32
  inb_S8x49x49_S1x49x49_5_0_0 : ∀ a, (![5, 0, 0] : Fin 3 → Nat) a + S1x49x49.size a ≤ S8x49x49.size a
  slices_S64x49x256_o0_0_192_S64x49x32 : S64x49x256.Slices ![0, 0, 192] S64x49x32
  inb_S8x49x49_S1x49x49_6_0_0 : ∀ a, (![6, 0, 0] : Fin 3 → Nat) a + S1x49x49.size a ≤ S8x49x49.size a
  slices_S64x49x256_o0_0_224_S64x49x32 : S64x49x256.Slices ![0, 0, 224] S64x49x32
  inb_S8x49x49_S1x49x49_7_0_0 : ∀ a, (![7, 0, 0] : Fin 3 → Nat) a + S1x49x49.size a ≤ S8x49x49.size a
  concatenates_S64x49x32_S64x49x32_S64x49x32_S64x49x32_S64x49x32_S64x49x32_S64x49x32_S64x49x32_S64x49x256_d2 : Shape.Concatenates [S64x49x32, S64x49x32, S64x49x32, S64x49x32, S64x49x32, S64x49x32, S64x49x32, S64x49x32] S64x49x256 2
  shapeCasts_S64x49x256_S3136x256 : S64x49x256.ShapeCasts S3136x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S3136x256 : S1x256.Broadcasts S3136x256
  shapeCasts_S200704x256_S4096x49x256 : S200704x256.ShapeCasts S4096x49x256
  gather_S169x8_S2401x1_S2401x8_1_0_n_n_0_1_18_wf : GatherDims.WF S169x8 S2401x1 S2401x8 [1] [0] [] [0] [] 1 ![1, 8]
  dot_S3136x256_S256x768_S3136x768_1_0_0_1_n_n_wf : DotDims.WF S3136x256 S256x768 S3136x768 [1] [0] [0] [1] [] []
  dot_S64x49x32_S64x49x32_S64x49x49_2_2_1_1_0_0_wf : DotDims.WF S64x49x32 S64x49x32 S64x49x49 [2] [2] [1] [1] [0] [0]
  dot_S64x49x49_S64x49x32_S64x49x32_2_1_1_2_0_0_wf : DotDims.WF S64x49x49 S64x49x32 S64x49x32 [2] [1] [1] [2] [0] [0]
  dot_S3136x256_S256x256_S3136x256_1_0_0_1_n_n_wf : DotDims.WF S3136x256 S256x256 S3136x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3136x256.size a ≤ S200704x256.size a
  hwx0_0 : ∀ i : grid0.Coords, EltTy.bits .f32 = 32 ∨ (Rect.block (s := S200704x256) S3136x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x49x49.size a ≤ S8x49x49.size a
  hwx0_3 : ∀ i : grid0.Coords, EltTy.bits .f32 = 32 ∨ (Rect.block (s := S8x49x49) S8x49x49.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3136x256.size a ≤ S200704x256.size a
  hwx0_6 : ∀ i : grid0.Coords, EltTy.bits .f32 = 32 ∨ (Rect.block (s := S200704x256) S3136x256.size (cc0_transform_6 i) (hinb0_6 i)).WholeWords (EltTy.packing .f32)

variable [Facts₀]

def gather_S169x8_S2401x1_S2401x8_1_0_n_n_0_1_18 : GatherDims S169x8 S2401x1 S2401x8 where
  offsetDims := [1]
  collapsedSliceDims := [0]
  operandBatchingDims := []
  startIndicesBatchingDims := []
  startIndexMap := [0]
  indexVectorDim := 1
  sliceSizes := ![1, 8]
  wf := gather_S169x8_S2401x1_S2401x8_1_0_n_n_0_1_18_wf
def dot_S3136x256_S256x768_S3136x768_1_0_0_1_n_n : DotDims S3136x256 S256x768 S3136x768 where
  lhsContracting := [1]
  rhsContracting := [0]
  lhsNonContracting := [0]
  rhsNonContracting := [1]
  lhsBatch := []
  rhsBatch := []
  wf := dot_S3136x256_S256x768_S3136x768_1_0_0_1_n_n_wf
def dot_S64x49x32_S64x49x32_S64x49x49_2_2_1_1_0_0 : DotDims S64x49x32 S64x49x32 S64x49x49 where
  lhsContracting := [2]
  rhsContracting := [2]
  lhsNonContracting := [1]
  rhsNonContracting := [1]
  lhsBatch := [0]
  rhsBatch := [0]
  wf := dot_S64x49x32_S64x49x32_S64x49x49_2_2_1_1_0_0_wf
def dot_S64x49x49_S64x49x32_S64x49x32_2_1_1_2_0_0 : DotDims S64x49x49 S64x49x32 S64x49x32 where
  lhsContracting := [2]
  rhsContracting := [1]
  lhsNonContracting := [1]
  rhsNonContracting := [2]
  lhsBatch := [0]
  rhsBatch := [0]
  wf := dot_S64x49x49_S64x49x32_S64x49x32_2_1_1_2_0_0_wf
def dot_S3136x256_S256x256_S3136x256_1_0_0_1_n_n : DotDims S3136x256 S256x256 S3136x256 where
  lhsContracting := [1]
  rhsContracting := [0]
  lhsNonContracting := [0]
  rhsNonContracting := [1]
  lhsBatch := []
  rhsBatch := []
  wf := dot_S3136x256_S256x256_S3136x256_1_0_0_1_n_n_wf

abbrev win0_0 : Pipeline.Window sig grid0 :=
  Pipeline.Window.ofSpec (Memref.whole main_v12) S3136x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x49x49.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S3136x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x49x256 : Shape := ⟨3, ![4096, 49, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S169x8 : Shape := ⟨2, ![169, 8]⟩
abbrev S49x49 : Shape := ⟨2, ![49, 49]⟩
abbrev S4096x49x768 : Shape := ⟨3, ![4096, 49, 768]⟩
abbrev S1x1x768 : Shape := ⟨3, ![1, 1, 768]⟩
abbrev S4096x49x3x8x32 : Shape := ⟨5, ![4096, 49, 3, 8, 32]⟩
abbrev S3x4096x8x49x32 : Shape := ⟨5, ![3, 4096, 8, 49, 32]⟩
abbrev S1x4096x8x49x32 : Shape := ⟨5, ![1, 4096, 8, 49, 32]⟩
abbrev S4096x8x49x32 : Shape := ⟨4, ![4096, 8, 49, 32]⟩
abbrev S_ : Shape := ⟨0, ![]⟩
abbrev S4096x8x49x49 : Shape := ⟨4, ![4096, 8, 49, 49]⟩
abbrev S2401 : Shape := ⟨1, ![2401]⟩
abbrev S2401x1 : Shape := ⟨2, ![2401, 1]⟩
abbrev S2401x8 : Shape := ⟨2, ![2401, 8]⟩
abbrev S49x49x8 : Shape := ⟨3, ![49, 49, 8]⟩
abbrev S8x49x49 : Shape := ⟨3, ![8, 49, 49]⟩
abbrev S1x8x49x49 : Shape := ⟨4, ![1, 8, 49, 49]⟩
abbrev S4096x8x49 : Shape := ⟨3, ![4096, 8, 49]⟩
abbrev S4096x8x49x1 : Shape := ⟨4, ![4096, 8, 49, 1]⟩
abbrev S4096x8x32x49 : Shape := ⟨4, ![4096, 8, 32, 49]⟩
abbrev S4096x49x8x32 : Shape := ⟨4, ![4096, 49, 8, 32]⟩
abbrev S1x1x256 : Shape := ⟨3, ![1, 1, 256]⟩

abbrev nBuf : Space → Nat
  | .hbm => 59
  | .vmem => 0
  | .smem => 0
  | _ => 0

abbrev bufTy : (tb : Table) → Fin (tcTables nBuf tb) → BufTy
  | .hbm, ⟨0, _⟩ => ⟨S4096x49x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S169x8, .f32⟩
  | .hbm, ⟨6, _⟩ => ⟨S49x49, .i32⟩
  | .hbm, ⟨7, _⟩ => ⟨S4096x49x768, .f32⟩
  | .hbm, ⟨8, _⟩ => ⟨S1x1x768, .f32⟩
  | .hbm, ⟨9, _⟩ => ⟨S4096x49x768, .f32⟩
  | .hbm, ⟨10, _⟩ => ⟨S4096x49x768, .f32⟩
  | .hbm, ⟨11, _⟩ => ⟨S4096x49x3x8x32, .f32⟩
  | .hbm, ⟨12, _⟩ => ⟨S3x4096x8x49x32, .f32⟩
  | .hbm, ⟨13, _⟩ => ⟨S1x4096x8x49x32, .f32⟩
  | .hbm, ⟨14, _⟩ => ⟨S4096x8x49x32, .f32⟩
  | .hbm, ⟨15, _⟩ => ⟨S1x4096x8x49x32, .f32⟩
  | .hbm, ⟨16, _⟩ => ⟨S4096x8x49x32, .f32⟩
  | .hbm, ⟨17, _⟩ => ⟨S1x4096x8x49x32, .f32⟩
  | .hbm, ⟨18, _⟩ => ⟨S4096x8x49x32, .f32⟩
  | .hbm, ⟨19, _⟩ => ⟨S_, .f32⟩
  | .hbm, ⟨20, _⟩ => ⟨S4096x8x49x32, .f32⟩
  | .hbm, ⟨21, _⟩ => ⟨S4096x8x49x32, .f32⟩
  | .hbm, ⟨22, _⟩ => ⟨S4096x8x49x49, .f32⟩
  | .hbm, ⟨23, _⟩ => ⟨S2401, .i32⟩
  | .hbm, ⟨24, _⟩ => ⟨S_, .i32⟩
  | .hbm, ⟨25, _⟩ => ⟨S2401, .i32⟩
  | .hbm, ⟨26, _⟩ => ⟨S2401, .i1⟩
  | .hbm, ⟨27, _⟩ => ⟨S_, .i32⟩
  | .hbm, ⟨28, _⟩ => ⟨S2401, .i32⟩
  | .hbm, ⟨29, _⟩ => ⟨S2401, .i32⟩
  | .hbm, ⟨30, _⟩ => ⟨S2401, .i32⟩
  | .hbm, ⟨31, _⟩ => ⟨S2401x1, .i32⟩
  | .hbm, ⟨32, _⟩ => ⟨S2401x8, .f32⟩
  | .hbm, ⟨33, _⟩ => ⟨S49x49x8, .f32⟩
  | .hbm, ⟨34, _⟩ => ⟨S8x49x49, .f32⟩
  | .hbm, ⟨35, _⟩ => ⟨S1x8x49x49, .f32⟩
  | .hbm, ⟨36, _⟩ => ⟨S4096x8x49x49, .f32⟩
  | .hbm, ⟨37, _⟩ => ⟨S4096x8x49x49, .f32⟩
  | .hbm, ⟨38, _⟩ => ⟨S_, .f32⟩
  | .hbm, ⟨39, _⟩ => ⟨S4096x8x49, .f32⟩
  | .hbm, ⟨40, _⟩ => ⟨S_, .f32⟩
  | .hbm, ⟨41, _⟩ => ⟨S4096x8x49, .f32⟩
  | .hbm, ⟨42, _⟩ => ⟨S4096x8x49, .f32⟩
  | .hbm, ⟨43, _⟩ => ⟨S4096x8x49x1, .f32⟩
  | .hbm, ⟨44, _⟩ => ⟨S4096x8x49x49, .f32⟩
  | .hbm, ⟨45, _⟩ => ⟨S4096x8x49x49, .f32⟩
  | .hbm, ⟨46, _⟩ => ⟨S4096x8x49x49, .f32⟩
  | .hbm, ⟨47, _⟩ => ⟨S_, .f32⟩
  | .hbm, ⟨48, _⟩ => ⟨S4096x8x49, .f32⟩
  | .hbm, ⟨49, _⟩ => ⟨S4096x8x49x1, .f32⟩
  | .hbm, ⟨50, _⟩ => ⟨S4096x8x49x49, .f32⟩
  | .hbm, ⟨51, _⟩ => ⟨S4096x8x49x49, .f32⟩
  | .hbm, ⟨52, _⟩ => ⟨S4096x8x32x49, .f32⟩
  | .hbm, ⟨53, _⟩ => ⟨S4096x49x8x32, .f32⟩
  | .hbm, ⟨54, _⟩ => ⟨S4096x49x256, .f32⟩
  | .hbm, ⟨55, _⟩ => ⟨S4096x49x256, .f32⟩
  | .hbm, ⟨56, _⟩ => ⟨S1x1x256, .f32⟩
  | .hbm, ⟨57, _⟩ => ⟨S4096x49x256, .f32⟩
  | .hbm, ⟨58, _⟩ => ⟨S4096x49x256, .f32⟩
  | _, _ => ⟨S4096x49x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4096x49x768_0_1_2 : S1x1x768.BroadcastsInDim S4096x49x768 (![0, 1, 2] : Fin 3 → Fin S4096x49x768.rank)
  shapeCasts_S4096x49x768_S4096x49x3x8x32 : S4096x49x768.ShapeCasts S4096x49x3x8x32
  transposes_S4096x49x3x8x32_S3x4096x8x49x32_2_0_3_1_4 : S4096x49x3x8x32.Transposes [2, 0, 3, 1, 4] S3x4096x8x49x32
  slices_S3x4096x8x49x32_S1x4096x8x49x32_0_0_0_0_0 : S3x4096x8x49x32.Slices ![0, 0, 0, 0, 0] S1x4096x8x49x32
  shapeCasts_S1x4096x8x49x32_S4096x8x49x32 : S1x4096x8x49x32.ShapeCasts S4096x8x49x32
  slices_S3x4096x8x49x32_S1x4096x8x49x32_1_0_0_0_0 : S3x4096x8x49x32.Slices ![1, 0, 0, 0, 0] S1x4096x8x49x32
  slices_S3x4096x8x49x32_S1x4096x8x49x32_2_0_0_0_0 : S3x4096x8x49x32.Slices ![2, 0, 0, 0, 0] S1x4096x8x49x32
  bcast_S_S4096x8x49x32 : S_.BroadcastsInDim S4096x8x49x32 (![] : Fin 0 → Fin S4096x8x49x32.rank)
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x8_S49x49x8 : S2401x8.ShapeCasts S49x49x8
  transposes_S49x49x8_S8x49x49_2_0_1 : S49x49x8.Transposes [2, 0, 1] S8x49x49
  bcast_S8x49x49_S1x8x49x49_1_2_3 : S8x49x49.BroadcastsInDim S1x8x49x49 (![1, 2, 3] : Fin 3 → Fin S1x8x49x49.rank)
  bcast_S1x8x49x49_S4096x8x49x49_0_1_2_3 : S1x8x49x49.BroadcastsInDim S4096x8x49x49 (![0, 1, 2, 3] : Fin 4 → Fin S4096x8x49x49.rank)
  reducesTo_S4096x8x49x49_S4096x8x49_d3 : S4096x8x49x49.ReducesTo [3] S4096x8x49
  h_S_ : 0 < S_.numel
  bcast_S_S4096x8x49 : S_.BroadcastsInDim S4096x8x49 (![] : Fin 0 → Fin S4096x8x49.rank)
  bcast_S4096x8x49_S4096x8x49x1_0_1_2 : S4096x8x49.BroadcastsInDim S4096x8x49x1 (![0, 1, 2] : Fin 3 → Fin S4096x8x49x1.rank)
  bcast_S4096x8x49x1_S4096x8x49x49_0_1_2_3 : S4096x8x49x1.BroadcastsInDim S4096x8x49x49 (![0, 1, 2, 3] : Fin 4 → Fin S4096x8x49x49.rank)
  transposes_S4096x8x32x49_S4096x49x8x32_0_3_1_2 : S4096x8x32x49.Transposes [0, 3, 1, 2] S4096x49x8x32
  shapeCasts_S4096x49x8x32_S4096x49x256 : S4096x49x8x32.ShapeCasts S4096x49x256
  bcast_S256_S1x1x256_2 : S256.BroadcastsInDim S1x1x256 (![2] : Fin 1 → Fin S1x1x256.rank)
  bcast_S1x1x256_S4096x49x256_0_1_2 : S1x1x256.BroadcastsInDim S4096x49x256 (![0, 1, 2] : Fin 3 → Fin S4096x49x256.rank)
  dot_S4096x49x256_S768x256_S4096x49x768_2_1_01_0_n_n_wf : DotDims.WF S4096x49x256 S768x256 S4096x49x768 [2] [1] [0, 1] [0] [] []
  dot_S4096x8x49x32_S4096x8x49x32_S4096x8x49x49_3_3_2_2_01_01_wf : DotDims.WF S4096x8x49x32 S4096x8x49x32 S4096x8x49x49 [3] [3] [2] [2] [0, 1] [0, 1]
  gather_S169x8_S2401x1_S2401x8_1_0_n_n_0_1_18_wf : GatherDims.WF S169x8 S2401x1 S2401x8 [1] [0] [] [0] [] 1 ![1, 8]
  dot_S4096x8x49x32_S4096x8x49x49_S4096x8x32x49_2_3_3_2_01_01_wf : DotDims.WF S4096x8x49x32 S4096x8x49x49 S4096x8x32x49 [2] [3] [3] [2] [0, 1] [0, 1]
  dot_S4096x49x256_S256x256_S4096x49x256_2_1_01_0_n_n_wf : DotDims.WF S4096x49x256 S256x256 S4096x49x256 [2] [1] [0, 1] [0] [] []

variable [Facts₀]

def dot_S4096x49x256_S768x256_S4096x49x768_2_1_01_0_n_n : DotDims S4096x49x256 S768x256 S4096x49x768 where
  lhsContracting := [2]
  rhsContracting := [1]
  lhsNonContracting := [0, 1]
  rhsNonContracting := [0]
  lhsBatch := []
  rhsBatch := []
  wf := dot_S4096x49x256_S768x256_S4096x49x768_2_1_01_0_n_n_wf
def dot_S4096x8x49x32_S4096x8x49x32_S4096x8x49x49_3_3_2_2_01_01 : DotDims S4096x8x49x32 S4096x8x49x32 S4096x8x49x49 where
  lhsContracting := [3]
  rhsContracting := [3]
  lhsNonContracting := [2]
  rhsNonContracting := [2]
  lhsBatch := [0, 1]
  rhsBatch := [0, 1]
  wf := dot_S4096x8x49x32_S4096x8x49x32_S4096x8x49x49_3_3_2_2_01_01_wf
def gather_S169x8_S2401x1_S2401x8_1_0_n_n_0_1_18 : GatherDims S169x8 S2401x1 S2401x8 where
  offsetDims := [1]
  collapsedSliceDims := [0]
  operandBatchingDims := []
  startIndicesBatchingDims := []
  startIndexMap := [0]
  indexVectorDim := 1
  sliceSizes := ![1, 8]
  wf := gather_S169x8_S2401x1_S2401x8_1_0_n_n_0_1_18_wf
def dot_S4096x8x49x32_S4096x8x49x49_S4096x8x32x49_2_3_3_2_01_01 : DotDims S4096x8x49x32 S4096x8x49x49 S4096x8x32x49 where
  lhsContracting := [2]
  rhsContracting := [3]
  lhsNonContracting := [3]
  rhsNonContracting := [2]
  lhsBatch := [0, 1]
  rhsBatch := [0, 1]
  wf := dot_S4096x8x49x32_S4096x8x49x49_S4096x8x32x49_2_3_3_2_01_01_wf
def dot_S4096x49x256_S256x256_S4096x49x256_2_1_01_0_n_n : DotDims S4096x49x256 S256x256 S4096x49x256 where
  lhsContracting := [2]
  rhsContracting := [1]
  lhsNonContracting := [0, 1]
  rhsNonContracting := [0]
  lhsBatch := []
  rhsBatch := []
  wf := dot_S4096x49x256_S256x256_S4096x49x256_2_1_01_0_n_n_wf

class Facts : Prop extends Facts₀ where

variable [Facts]
-- ==== Proof.KerTerms.lean ====
/-
  The kernel body's arithmetic, regrouped by what it computes. The body is printed with its eight heads written out one
  after the other; here one head is ONE term of the three projected arrays (queries, keys, values over the block's 64
  windows), the head's bias slab and the lane offset 32·h, built from the same operations in the same order:
  lanes [off, off+32) of the queries scaled and narrowed, against the same lanes of the keys (a product contracted over
  the lanes, batched over the windows), plus the bias laid over the windows; each row shifted by its maximum,
  exponentiated, divided by its sum; the weights against the same lanes of the values. The block's result is the eight
  heads side by side, flattened to rows, through the output projection, plus its bias. That the printed payloads are
  these terms is a matter of unfolding both sides.
-/
import proofs.«137342_j17575006175665_2_alg».proof.Proof.Gen.KernelIdeal.Frame
import Idealize.ShloMosaic.PureOps.Ideal

noncomputable section

namespace Cert.WindowAttn.Ker

open Idealize.ShloMosaic Cert.KernelIdeal Cert.KernelIdeal.Gen

/-- Lanes `off … off+31` of a [64, 49, 256] array. -/
def lanes (off : Nat) (hs : S64x49x256.Slices ![0, 0, off] S64x49x32) (A : FVec Ideal S64x49x256 .f32) :
    FVec Ideal S64x49x32 .f32 :=
  extractStridedSlice S64x49x32 ![0, 0, off] A hs

/-- A [64, 49, 32] array narrowed (the identity on the extended reals). -/
def narrow (A : FVec Ideal S64x49x32 .f32) : FVec Ideal S64x49x32 .bf16 := truncf .bf16 A bitsLt_bf16_f32

/-- The head's queries: its lanes, times the scale, narrowed. -/
def scaledQ (off : Nat) (hs : S64x49x256.Slices ![0, 0, off] S64x49x32) (Q : FVec Ideal S64x49x256 .f32) :
    FVec Ideal S64x49x32 .bf16 :=
  truncf .bf16 (mulf (lanes off hs Q) (broadcast S64x49x32 (Scalar.ofBits .f32 0x3E3504F3#32))) bitsLt_bf16_f32

/-- The scores of every window: queries against keys over the lanes, plus the head's bias laid over the windows. -/
def scoresOf (q k : FVec Ideal S64x49x32 .bf16) (B : Vec Ideal S1x49x49 .f32) : FVec Ideal S64x49x49 .f32 :=
  addf (matmul dot_S64x49x32_S64x49x32_S64x49x49_2_2_1_1_0_0 none q k (constant S64x49x49 .f32 0x00000000#32))
    (broadcastTo S64x49x49 (shapeCast S1x49x49 (shapeCast S49x49 B shapeCasts_S1x49x49_S49x49) shapeCasts_S49x49_S1x49x49)
      broadcasts_S1x49x49_S64x49x49)

/-- Each row shifted by its maximum and exponentiated. -/
def expOf (S : FVec Ideal S64x49x49 .f32) : FVec Ideal S64x49x49 .f32 :=
  exp (subf S (broadcastTo S64x49x49
    (shapeCast S64x49x1 (multiReduction .maximumf [2] S64x49 S 0xFF800000#32 reduces_S64x49x49_S64x49 (.inl rfl) rfl)
      shapeCasts_S64x49_S64x49x1) broadcasts_S64x49x1_S64x49x49))

/-- Each row divided by its sum, narrowed. -/
def probsOf (E : FVec Ideal S64x49x49 .f32) : FVec Ideal S64x49x49 .bf16 :=
  truncf .bf16 (divf E (broadcastTo S64x49x49
    (shapeCast S64x49x1 (multiReduction .add [2] S64x49 E 0x00000000#32 reduces_S64x49x49_S64x49 (.inl rfl) rfl)
      shapeCasts_S64x49_S64x49x1) broadcasts_S64x49x1_S64x49x49)) bitsLt_bf16_f32

/-- The weights against the values, contracted over the tokens, batched over the windows. -/
def mixOf (p : FVec Ideal S64x49x49 .bf16) (v : FVec Ideal S64x49x32 .bf16) (acc : FVec Ideal S64x49x32 .f32) :
    FVec Ideal S64x49x32 .f32 :=
  matmul dot_S64x49x49_S64x49x32_S64x49x32_2_1_1_2_0_0 none p v acc

/-- One head, whole. -/
def headOf (off : Nat) (hs : S64x49x256.Slices ![0, 0, off] S64x49x32) (Q K V : FVec Ideal S64x49x256 .f32)
    (B : Vec Ideal S1x49x49 .f32) : FVec Ideal S64x49x32 .f32 :=
  mixOf (probsOf (expOf (scoresOf (scaledQ off hs Q) (narrow (lanes off hs K)) B))) (narrow (lanes off hs V))
    (constant S64x49x32 .f32 0x00000000#32)

/-- The joint projection of the block's 3136 rows, laid out as 64 windows of 49 tokens. -/
def projIn (x0 : Vec Ideal S3136x256 .f32) (x1 : Vec Ideal S256x768 .f32) (x2 : Vec Ideal S768 .f32) :
    FVec Ideal S64x49x768 .f32 := k0_pay2 (F := Ideal) x0 x1 x2

/-- The eight heads side by side, flattened to rows, through the output projection, plus its bias. -/
def projOut (o0 o1 o2 o3 o4 o5 o6 o7 : FVec Ideal S64x49x32 .f32) (x4 : Vec Ideal S256x256 .f32) (x5 : Vec Ideal S256 .f32) :
    FVec Ideal S3136x256 .f32 :=
  addf
    (matmul dot_S3136x256_S256x256_S3136x256_1_0_0_1_n_n none
      (truncf .bf16 (shapeCast S3136x256
        (concatenate S64x49x256 2 [⟨S64x49x32, o0⟩, ⟨S64x49x32, o1⟩, ⟨S64x49x32, o2⟩, ⟨S64x49x32, o3⟩, ⟨S64x49x32, o4⟩,
          ⟨S64x49x32, o5⟩, ⟨S64x49x32, o6⟩, ⟨S64x49x32, o7⟩]
          concatenates_S64x49x32_S64x49x32_S64x49x32_S64x49x32_S64x49x32_S64x49x32_S64x49x32_S64x49x32_S64x49x256_d2)
        shapeCasts_S64x49x256_S3136x256) bitsLt_bf16_f32)
      (truncf .bf16 (shapeCast S256x256 x4 shapeCasts_S256x256_S256x256) bitsLt_bf16_f32)
      (constant S3136x256 .f32 0x00000000#32))
    (broadcastTo S3136x256 (shapeCast S1x256 x5 shapeCasts_S256_S1x256) broadcasts_S1x256_S3136x256)

/-- The block's whole payload as one term of the six loaded blocks and the eight bias slabs. -/
def blockTerm (x0 : Vec Ideal S3136x256 .f32) (x1 : Vec Ideal S256x768 .f32) (x2 : Vec Ideal S768 .f32)
    (b0 b1 b2 b3 b4 b5 b6 b7 : Vec Ideal S1x49x49 .f32) (x4 : Vec Ideal S256x256 .f32) (x5 : Vec Ideal S256 .f32) :
    FVec Ideal S3136x256 .f32 :=
  projOut
    (headOf 0 slices_S64x49x256_o0_0_0_S64x49x32 (k0_pay3 x0 x1 x2) (k0_pay4 x0 x1 x2) (k0_pay5 x0 x1 x2) b0)
    (headOf 32 slices_S64x49x256_o0_0_32_S64x49x32 (k0_pay3 x0 x1 x2) (k0_pay4 x0 x1 x2) (k0_pay5 x0 x1 x2) b1)
    (headOf 64 slices_S64x49x256_o0_0_64_S64x49x32 (k0_pay3 x0 x1 x2) (k0_pay4 x0 x1 x2) (k0_pay5 x0 x1 x2) b2)
    (headOf 96 slices_S64x49x256_o0_0_96_S64x49x32 (k0_pay3 x0 x1 x2) (k0_pay4 x0 x1 x2) (k0_pay5 x0 x1 x2) b3)
    (headOf 128 slices_S64x49x256_o0_0_128_S64x49x32 (k0_pay3 x0 x1 x2) (k0_pay4 x0 x1 x2) (k0_pay5 x0 x1 x2) b4)
    (headOf 160 slices_S64x49x256_o0_0_160_S64x49x32 (k0_pay3 x0 x1 x2) (k0_pay4 x0 x1 x2) (k0_pay5 x0 x1 x2) b5)
    (headOf 192 slices_S64x49x256_o0_0_192_S64x49x32 (k0_pay3 x0 x1 x2) (k0_pay4 x0 x1 x2) (k0_pay5 x0 x1 x2) b6)
    (headOf 224 slices_S64x49x256_o0_0_224_S64x49x32 (k0_pay3 x0 x1 x2) (k0_pay4 x0 x1 x2) (k0_pay5 x0 x1 x2) b7)
    x4 x5

/-- The printed payloads, composed as the body composes them, are that term. -/
theorem payload_eq (x0 : Vec Ideal S3136x256 .f32) (x1 : Vec Ideal S256x768 .f32) (x2 : Vec Ideal S768 .f32)
    (b0 b1 b2 b3 b4 b5 b6 b7 : Vec Ideal S1x49x49 .f32) (x4 : Vec Ideal S256x256 .f32) (x5 : Vec Ideal S256 .f32) :
    k0_pay1 (F := Ideal)
      (k0_pay19 (k0_pay3 x0 x1 x2) (k0_pay4 x0 x1 x2) (k0_pay5 x0 x1 x2) (k0_pay6 x0 x1 x2 b0)
        (k0_pay8 (k0_pay4 x0 x1 x2) (k0_pay5 x0 x1 x2) (k0_pay7 x0 x1 x2) b1)
        (k0_pay11 (k0_pay9 (k0_pay5 x0 x1 x2)) (k0_pay10 (k0_pay3 x0 x1 x2) (k0_pay4 x0 x1 x2) b2) (constant S64x49x32 .f32 0x00000000#32))
        (k0_pay12 (k0_pay3 x0 x1 x2) (k0_pay4 x0 x1 x2) (k0_pay5 x0 x1 x2) b3)
        (k0_pay15 (k0_pay13 (k0_pay5 x0 x1 x2)) (k0_pay14 (k0_pay3 x0 x1 x2) (k0_pay4 x0 x1 x2) b4))
        (k0_pay16 (k0_pay3 x0 x1 x2) (k0_pay4 x0 x1 x2) (k0_pay5 x0 x1 x2) b5)
        (k0_pay17 (k0_pay5 x0 x1 x2)) (k0_pay18 (k0_pay3 x0 x1 x2) (k0_pay4 x0 x1 x2) b6) b7 x4)
      (k0_pay20 x5)
    = blockTerm x0 x1 x2 b0 b1 b2 b3 b4 b5 b6 b7 x4 x5 := rfl

end Cert.WindowAttn.Ker

end
-- ==== Proof.KerHost.lean ====
/-
  What the kernel's region finds and reads. Before the region the host lays the activations out as 200704 = 4096·49 rows
  of 256 channels (row 49·b + n is token n of window b), transposes the two weight matrices, and builds the heads' bias
  slabs [8, 49, 49] from the table and the index map (a gather, a re-layout and a transpose). The grid has 64 points; at
  point t the activations' block is rows [3136·t, 3136·(t+1)) — windows 64·t … 64·t + 63 — and every other operand's
  block is its whole array.
-/
import proofs.«137342_j17575006175665_2_alg».proof.Proof.KerTerms
import Idealize.ShloMosaic.Lib.ValueIdx
import Idealize.ShloMosaic.Lib.Pipeline.Value
import Idealize.ShloMosaic.Lib.StableHlo.Run

noncomputable section

namespace Cert.WindowAttn.Ker

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The host lines before the region -/

/-- The heads' bias slabs as the host builds them from the table and the index map: negative indices wrapped by 169,
    one table row gathered per (n, m), re-laid as [49, 49, 8] and transposed to [8, 49, 49]. -/
def biasArr (tbl : FVec Ideal S169x8 .f32) (idx : IVec S49x49 32) : FVec Ideal S8x49x49 .f32 :=
  transpose S8x49x49 [2, 0, 1]
    (shapeCast S49x49x8
      (Host.gather gather_S169x8_S2401x1_S2401x8_1_0_n_n_0_1_18 tbl
        (broadcastInDim S2401x1 ![0] bcast_S2401_S2401x1_0
          (select
            (cmpi CmpIPredicate.slt (shapeCast S2401 idx shapeCasts_S49x49_S2401)
              (broadcastInDim S2401 ![] bcast_S_S2401 (constantI S_ 32 0#32)))
            (addi (shapeCast S2401 idx shapeCasts_S49x49_S2401)
              (broadcastInDim S2401 ![] bcast_S_S2401 (constantI S_ 32 169#32)))
            (shapeCast S2401 idx shapeCasts_S49x49_S2401))))
      shapeCasts_S2401x8_S49x49x8)
    transposes_S49x49x8_S8x49x49_2_0_1

theorem V_v12 (c : Dev nD) : (V m c main_v12 : S200704x256.Idx → EReal)
    = shapeCast S200704x256 (m ((c : Thread nD τ).loc main_arg0)) shapeCasts_S4096x49x256_S200704x256 := by
  show StableHlo.after hostOps0 (fun b => m (c, b)) (Proc.devRef .tc main_v12) = _
  after_results <;> rfl

theorem V_v10 (c : Dev nD) : (V m c main_v10 : S256x768.Idx → EReal)
    = transpose S256x768 [1, 0] (m ((c : Thread nD τ).loc main_arg1)) transposes_S768x256_S256x768_1_0 := by
  show StableHlo.after hostOps0 (fun b => m (c, b)) (Proc.devRef .tc main_v10) = _
  after_results <;> rfl

theorem V_v11 (c : Dev nD) : (V m c main_v11 : S256x256.Idx → EReal)
    = transpose S256x256 [1, 0] (m ((c : Thread nD τ).loc main_arg3)) transposes_S256x256_S256x256_1_0 := by
  show StableHlo.after hostOps0 (fun b => m (c, b)) (Proc.devRef .tc main_v11) = _
  after_results <;> rfl

theorem V_v9 (c : Dev nD) : (V m c main_v9 : S8x49x49.Idx → EReal)
    = biasArr (m ((c : Thread nD τ).loc main_arg5)) (m ((c : Thread nD τ).loc main_arg6)) := by
  show StableHlo.after hostOps0 (fun b => m (c, b)) (Proc.devRef .tc main_v9) = _
  after_results <;> rfl

/-! ## The index maps over the grid -/

/-- The printed index maps, decided over the 64 points: the activations' and the result's blocks move one block of rows
    per point; every other operand's block stays at the origin. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 1) = 0 :=
  (by decide +kernel : ∀ t : Fin grid0.N, _)

theorem t_lt (t : Fin cfg0.N) : t.val < 64 := by
  have h1 := t.isLt
  have h2 : cfg0.N = 64 := N_0
  omega

/-! ## The windows' blocks at a point -/

/-- The activations' block at point `t`: row `r` of the block is row `3136·t + r` of the laid-out activations. -/
theorem iblk0_apply (c : Dev nD) (t : Fin cfg0.N) (r : Fin 3136) (k : Fin 256) (R : Fin 200704)
    (hR : R.val = 3136 * t.val + r.val) :
    (iblk m c 0 t : Vec Ideal S3136x256 .f32) (ix2 r k) = (V m c main_v12 : S200704x256.Idx → EReal) (ix2 R k) := by
  obtain ⟨e0, e1, -⟩ := idx_facts t
  unfold iblk
  rw [View.read_apply]
  show V m c main_v12 _ = V m c main_v12 _
  congr 1
  funext a
  apply Fin.ext
  match a with
  | ⟨0, _⟩ => show win0_0.index t (0 : Fin 2) * 3136 + 1 * r.val = R.val; rw [e0, hR]; omega
  | ⟨1, _⟩ => show win0_0.index t (1 : Fin 2) * 256 + 1 * k.val = k.val; rw [e1]; omega

theorem iblk1_eq (c : Dev nD) (t : Fin cfg0.N) : (iblk m c 1 t : Vec Ideal S256x768 .f32) = V m c main_v10 := by
  obtain ⟨-, -, -, -, e0, e1, -⟩ := idx_facts t
  funext y
  unfold iblk
  rw [View.read_apply]
  show V m c main_v10 _ = V m c main_v10 y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 768 + 1 * (y 1).val = (y 1).val; rw [e1]; omega

theorem iblk2_eq (c : Dev nD) (t : Fin cfg0.N) : (iblk m c 2 t : Vec Ideal S768 .f32) = V m c main_arg2 := by
  obtain ⟨-, -, -, -, -, -, e0, -⟩ := idx_facts t
  funext y
  unfold iblk
  rw [View.read_apply]
  show V m c main_arg2 _ = V m c main_arg2 y
  congr 1
  funext a
  apply Fin.ext
  match a with
  | ⟨0, _⟩ => show win0_2.index t (0 : Fin 1) * 768 + 1 * (y 0).val = (y 0).val; rw [e0]; omega

theorem iblk3_eq (c : Dev nD) (t : Fin cfg0.N) : (iblk m c 3 t : Vec Ideal S8x49x49 .f32) = V m c main_v9 := by
  obtain ⟨-, -, -, -, -, -, -, e0, e1, e2, -⟩ := idx_facts t
  funext y
  unfold iblk
  rw [View.read_apply]
  show V m c main_v9 _ = V m c main_v9 y
  congr 1
  funext a
  apply Fin.ext
  match a with
  | ⟨0, _⟩ => show win0_3.index t (0 : Fin 3) * 8 + 1 * (y 0).val = (y 0).val; rw [e0]; omega
  | ⟨1, _⟩ => show win0_3.index t (1 : Fin 3) * 49 + 1 * (y 1).val = (y 1).val; rw [e1]; omega
  | ⟨2, _⟩ => show win0_3.index t (2 : Fin 3) * 49 + 1 * (y 2).val = (y 2).val; rw [e2]; omega

theorem iblk4_eq (c : Dev nD) (t : Fin cfg0.N) : (iblk m c 4 t : Vec Ideal S256x256 .f32) = V m c main_v11 := by
  obtain ⟨-, -, -, -, -, -, -, -, -, -, e0, e1, -⟩ := idx_facts t
  funext y
  unfold iblk
  rw [View.read_apply]
  show V m c main_v11 _ = V m c main_v11 y
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

theorem iblk5_eq (c : Dev nD) (t : Fin cfg0.N) : (iblk m c 5 t : Vec Ideal S256 .f32) = V m c main_arg4 := by
  obtain ⟨-, -, -, -, -, -, -, -, -, -, -, -, e0⟩ := idx_facts t
  funext y
  unfold iblk
  rw [View.read_apply]
  show V m c main_arg4 _ = V m c main_arg4 y
  congr 1
  funext a
  apply Fin.ext
  match a with
  | ⟨0, _⟩ => show win0_5.index t (0 : Fin 1) * 256 + 1 * (y 0).val = (y 0).val; rw [e0]; omega

end Cert.WindowAttn.Ker

end
-- ==== Proof.Spec.lean ====
/-
  Windowed multi-head attention over one window of 49 tokens and 256 channels, as ONE function of the arguments
  on the extended reals, coordinate by coordinate. Both programs compute it: the tiled kernel sixty-four windows at a
  time with the eight heads written out, the reference over all windows and heads at once.

  For a window's rows X (49 tokens by 256 channels):
    * the joint projection  qkv n o = (sum over c of X n c * W o c) + bq o  has 768 columns: part s (0 query, 1 key,
      2 value) of head h, lane d sits at column s*256 + h*32 + d;
    * head h scores token n against token m by  sum over d of (q n d * scale) * k m d, plus the head's bias at (n, m);
    * each row of scores is shifted by its maximum (the fold of max from minus infinity), exponentiated, and divided by
      the sum of the exponentials;
    * the weights mix the value rows,  mix h n d = sum over m of prob h n m * v m d;
    * the heads' results side by side (channel c belongs to head c / 32, lane c % 32) go through the output projection.
  No step is rearranged between the two programs, so no law beyond commutativity of the product is needed and nothing
  here asks the entries to be finite.
-/
import Idealize.ShloMosaic.PureOps.Ideal
import Idealize.ShloMosaic.Lib.ValueIdx

noncomputable section

namespace Cert.WindowAttn

open Idealize.ShloMosaic Idealize.ShloMosaic.ValueIdx

/-- Minus infinity, as the pattern both programs start their row maxima from. -/
def negInf : EReal := Ideal.ofBits .f32 0xFF800000#32
/-- The query scale, as the pattern both programs multiply the queries by (the float nearest 32^(-1/2)). -/
def qscale : EReal := Ideal.ofBits .f32 0x3E3504F3#32

/-- The column of the joint projection that holds part `s` (0 query, 1 key, 2 value) of head `h`, lane `d`. -/
def col (s : Fin 3) (h : Fin 8) (d : Fin 32) : Fin 768 :=
  ⟨s.val * 256 + h.val * 32 + d.val, by have := s.isLt; have := h.isLt; have := d.isLt; omega⟩

theorem col_val (s : Fin 3) (h : Fin 8) (d : Fin 32) : (col s h d).val = s.val * 256 + h.val * 32 + d.val := rfl

/-- The head a channel of the mixed rows belongs to, and its lane there. -/
def headOf (c : Fin 256) : Fin 8 := ⟨c.val / 32, by have := c.isLt; omega⟩
def laneOf (c : Fin 256) : Fin 32 := ⟨c.val % 32, Nat.mod_lt _ (by decide)⟩

section Window

/-- The joint query/key/value projection of token `n`, column `o`, of a window's rows `X`. -/
def qkv (X : Fin 49 → Fin 256 → EReal) (W : Fin 768 → Fin 256 → EReal) (bq : Fin 768 → EReal) (n : Fin 49) (o : Fin 768) : EReal :=
  (∑ c : Fin 256, X n c * W o c) + bq o

/- The attention proper, over a window's projected rows `P` (49 tokens by 768 columns) and the heads' biases. -/
variable (P : Fin 49 → Fin 768 → EReal) (bias : Fin 8 → Fin 49 → Fin 49 → EReal)

/-- Head `h`'s score of token `n` against token `m`: the scaled query against the key, plus the bias. -/
def score (h : Fin 8) (n m : Fin 49) : EReal :=
  (∑ d : Fin 32, (P n (col 0 h d) * qscale) * P m (col 1 h d)) + bias h n m

/-- The largest score of row `n`, folded from minus infinity. -/
def top (h : Fin 8) (n : Fin 49) : EReal :=
  (Finset.univ : Finset (Fin 49)).fold max negInf (fun m => score P bias h n m)

/-- The exponential of a score relative to its row's maximum. -/
def ex (h : Fin 8) (n m : Fin 49) : EReal := Ideal.exp (score P bias h n m - top P bias h n)

/-- The row's sum of exponentials. -/
def den (h : Fin 8) (n : Fin 49) : EReal := ∑ m : Fin 49, ex P bias h n m

/-- The attention weight of token `m` for token `n`. -/
def prob (h : Fin 8) (n m : Fin 49) : EReal := Ideal.div (ex P bias h n m) (den P bias h n)

/-- Head `h`'s mixed value row of token `n`, lane `d`. -/
def mix (h : Fin 8) (n : Fin 49) (d : Fin 32) : EReal :=
  ∑ m : Fin 49, prob P bias h n m * P m (col 2 h d)

/-- The heads' rows side by side: channel `c` is lane `c % 32` of head `c / 32`. -/
def mixed (n : Fin 49) (c : Fin 256) : EReal := mix P bias (headOf c) n (laneOf c)

/-- The output projection of the mixed rows: the window's result at token `n`, channel `j`. -/
def win (X : Fin 49 → Fin 256 → EReal) (W : Fin 768 → Fin 256 → EReal) (bq : Fin 768 → EReal)
    (Wp : Fin 256 → Fin 256 → EReal) (bp : Fin 256 → EReal) (bias : Fin 8 → Fin 49 → Fin 49 → EReal)
    (n : Fin 49) (j : Fin 256) : EReal :=
  (∑ c : Fin 256, mixed (qkv X W bq) bias n c * Wp j c) + bp j

end Window

/-- The whole result over all 4096 windows, as one function of the argument arrays: window `b` sees only its own rows. -/
def G (x : (⟨3, ![4096, 49, 256]⟩ : Shape).Idx → EReal) (w : (⟨2, ![768, 256]⟩ : Shape).Idx → EReal)
    (bq : (⟨1, ![768]⟩ : Shape).Idx → EReal) (wp : (⟨2, ![256, 256]⟩ : Shape).Idx → EReal)
    (bp : (⟨1, ![256]⟩ : Shape).Idx → EReal) (bias : (⟨3, ![8, 49, 49]⟩ : Shape).Idx → EReal) :
    (⟨3, ![4096, 49, 256]⟩ : Shape).Idx → EReal := fun i =>
  win (fun n c => x (ix3 (i 0) n c)) (fun o c => w (ix2 o c)) (fun o => bq (ix1 o)) (fun j c => wp (ix2 j c))
    (fun j => bp (ix1 j)) (fun h n m => bias (ix3 h n m)) (i 1) (i 2)

end Cert.WindowAttn

end
-- ==== Proof.LibRank3Layout.lean ====
/-
  Layout operations between vectors, matrices and rank-three arrays, read at an index given by coordinates: a matrix
  `[a, b]` viewed as `[a, b, 1]` and laid along a third axis; a vector `[c]` viewed as `[1, 1, c]` and laid over the first
  two axes; a vector `[a]` viewed as a column `[a, 1]` and laid over the columns of `[a, b]`; an array `[a, b, c]` flattened
  to the matrix `[a·b, c]` whose row `p·b + q` is the fibre `(p, q, ·)`, and back; and the index a sum over one axis of a
  rank-three array, or over the columns of a matrix, inserts.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rank3Layout

open Idealize.ShloMosaic Idealize.ShloMosaic.ValueIdx

variable {α : Type}

/-- A matrix `[a, b]` viewed as `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector `[c]` viewed as `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- An array `[a, b, 1]` laid along a third axis of extent `c` reads, at `(p, q, k)`, the array at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, 1, c]` laid over two leading axes of extents `a` and `b` reads, at `(p, q, k)`, the array at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and laid over `[a, b, c]` reads, at `(p, q, k)`, the vector at `k`. -/
theorem fibreVector_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x h1) h2 (ix3 p q k) = x (ix1 k) :=
  (broadcastTo_11c_abc_apply _ h2 p q k).trans (shapeCast_c_11c_apply x h1 0 0 k)

/-- A matrix `[a, b]` viewed as `[a, b, 1]` and laid along a third axis reads, at `(p, q, k)`, the matrix at `(p, q)`. -/
theorem alongThird_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (broadcastTo_ab1_abc_apply _ h2 p q k).trans (shapeCast_ab_ab1_apply x h1 p q 0)

/-- A vector `[a]` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` laid over `b` columns reads, at `(p, q)`, the column at row `p`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column and laid over the columns of `[a, b]` reads, at `(p, q)`, the vector at `p`. -/
theorem columnVector_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ x h1) h2 (ix2 p q) = x (ix1 p) :=
  (broadcastTo_a1_ab_apply _ h2 p q).trans (shapeCast_a_a1_apply x h1 p 0)

/-- An array `[a, b, c]` flattened to a matrix of `n = a·b` rows reads, at row `r = p·b + q` and column `k`, the array at
    `(p, q, k)`. -/
theorem shapeCast_abc_flat_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- A matrix of `n = a·b` rows unflattened to `[a, b, c]` reads, at `(p, q, k)`, the matrix at row `r = p·b + q`, column `k`. -/
theorem shapeCast_flat_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.Rank3Layout

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.KerDense.lean ====
/-
  The two dense projections of the kernel body, read at coordinates. Row r = 49·w + n of the block's 3136 rows is token n
  of window w. The joint projection at (w, n, o) is the row's product with column o of the transposed weights plus the bias
  at o; its three slices are its columns [0,256), [256,512), [512,768). The output projection at (r, j) contracts, over the
  256 channels c, the eight heads laid side by side (channel c is lane c % 32 of head c / 32) with column j of the transposed
  output weights, and adds the bias at j.
-/
import proofs.«137342_j17575006175665_2_alg».proof.Proof.KerTerms
import proofs.«137342_j17575006175665_2_alg».proof.Proof.Spec
import proofs.«137342_j17575006175665_2_alg».proof.Proof.LibDenseRows
import proofs.«137342_j17575006175665_2_alg».proof.Proof.LibRank3Layout
import Idealize.ShloMosaic.Lib.ValueIdx
import Idealize.ShloMosaic.Lib.ValueLayout
import Idealize.ShloMosaic.Lib.Pipeline.Value
import Idealize.ShloMosaic.PureOps.Ideal.Laws

noncomputable section

namespace Cert.WindowAttn.Ker

open Idealize.ShloMosaic Idealize.ShloMosaic.ValueIdx Cert.KernelIdeal Cert.KernelIdeal.Gen

/-! ## The two contractions' operand indices -/

theorem dotIn_l0 (j : S3136x768.Idx) (k : dot_S3136x256_S256x768_S3136x768_1_0_0_1_n_n.contr.Idx) :
    (dot_S3136x256_S256x768_S3136x768_1_0_0_1_n_n.lhsIdx j k (0 : Fin 2)).val = (j (0 : Fin 2)).val := by
  unfold DotDims.lhsIdx
  rw [dif_neg (show ¬(0 : Fin S3136x256.rank) ∈ dot_S3136x256_S256x768_S3136x768_1_0_0_1_n_n.lhsBatch by decide),
    dif_pos (show (0 : Fin S3136x256.rank) ∈ dot_S3136x256_S256x768_S3136x768_1_0_0_1_n_n.lhsNonContracting by decide)]
  rfl

theorem dotIn_r1 (j : S3136x768.Idx) (k : dot_S3136x256_S256x768_S3136x768_1_0_0_1_n_n.contr.Idx) :
    (dot_S3136x256_S256x768_S3136x768_1_0_0_1_n_n.rhsIdx j k (1 : Fin 2)).val = (j (1 : Fin 2)).val := by
  unfold DotDims.rhsIdx
  rw [dif_neg (show ¬(1 : Fin S256x768.rank) ∈ dot_S3136x256_S256x768_S3136x768_1_0_0_1_n_n.rhsBatch by decide),
    dif_pos (show (1 : Fin S256x768.rank) ∈ dot_S3136x256_S256x768_S3136x768_1_0_0_1_n_n.rhsNonContracting by decide)]
  rfl

theorem dotOut_l0 (j : S3136x256.Idx) (k : dot_S3136x256_S256x256_S3136x256_1_0_0_1_n_n.contr.Idx) :
    (dot_S3136x256_S256x256_S3136x256_1_0_0_1_n_n.lhsIdx j k (0 : Fin 2)).val = (j (0 : Fin 2)).val := by
  unfold DotDims.lhsIdx
  rw [dif_neg (show ¬(0 : Fin S3136x256.rank) ∈ dot_S3136x256_S256x256_S3136x256_1_0_0_1_n_n.lhsBatch by decide),
    dif_pos (show (0 : Fin S3136x256.rank) ∈ dot_S3136x256_S256x256_S3136x256_1_0_0_1_n_n.lhsNonContracting by decide)]
  rfl

theorem dotOut_r1 (j : S3136x256.Idx) (k : dot_S3136x256_S256x256_S3136x256_1_0_0_1_n_n.contr.Idx) :
    (dot_S3136x256_S256x256_S3136x256_1_0_0_1_n_n.rhsIdx j k (1 : Fin 2)).val = (j (1 : Fin 2)).val := by
  unfold DotDims.rhsIdx
  rw [dif_neg (show ¬(1 : Fin S256x256.rank) ∈ dot_S3136x256_S256x256_S3136x256_1_0_0_1_n_n.rhsBatch by decide),
    dif_pos (show (1 : Fin S256x256.rank) ∈ dot_S3136x256_S256x256_S3136x256_1_0_0_1_n_n.rhsNonContracting by decide)]
  rfl

/-! ## The joint projection -/

/-- The joint projection of the block at window `w`, token `n`, column `o`: row `r = 49·w + n` against column `o` of
    the transposed weights, plus the bias. -/
theorem projIn_apply (x0 : Vec Ideal S3136x256 .f32) (x1 : Vec Ideal S256x768 .f32) (x2 : Vec Ideal S768 .f32)
    (w : Fin 64) (n : Fin 49) (o : Fin 768) (r : Fin 3136) (hr : r.val = w.val * 49 + n.val) :
    k0_pay2 (F := Ideal) x0 x1 x2 (ix3 w n o) = (∑ c : Fin 256, x0 (ix2 r c) * x1 (ix2 c o)) + x2 (ix1 o) := by
  unfold k0_pay2
  refine (Cert.Rank3Layout.shapeCast_flat_abc_apply _ shapeCasts_S3136x768_S64x49x768 w n o r hr).trans ?_
  rw [addf_apply]
  refine congrArg₂ (· + ·) ?_ ?_
  · refine (Cert.DenseRows.matmul_zero_plain_apply dot_S3136x256_S256x768_S3136x768_1_0_0_1_n_n rfl rfl rfl rfl
      dotIn_l0 dotIn_r1 _ _ r o).trans ?_
    refine Finset.sum_congr rfl fun c _ => ?_
    rw [truncf_apply, truncf_apply, shapeCast_self, shapeCast_self]
  · exact Cert.DenseRows.rowBias_cast_apply x2 shapeCasts_S768_S1x768 broadcasts_S1x768_S3136x768 r o

/-- The three slices are the projection's columns from 0, 256 and 512. -/
theorem pay3_apply (x0 : Vec Ideal S3136x256 .f32) (x1 : Vec Ideal S256x768 .f32) (x2 : Vec Ideal S768 .f32)
    (w : Fin 64) (n : Fin 49) (c : Fin 256) :
    k0_pay3 (F := Ideal) x0 x1 x2 (ix3 w n c) = k0_pay2 (F := Ideal) x0 x1 x2 (ix3 w n ⟨c.val, by have := c.isLt; omega⟩) := by
  unfold k0_pay3
  refine extractStridedSlice_apply _ _ slices_S64x49x768_o0_0_0_S64x49x256 _ _ fun a => ?_
  match a with
  | ⟨0, _⟩ => show w.val = 0 + w.val; omega
  | ⟨1, _⟩ => show n.val = 0 + n.val; omega
  | ⟨2, _⟩ => show c.val = 0 + c.val; omega

theorem pay4_apply (x0 : Vec Ideal S3136x256 .f32) (x1 : Vec Ideal S256x768 .f32) (x2 : Vec Ideal S768 .f32)
    (w : Fin 64) (n : Fin 49) (c : Fin 256) :
    k0_pay4 (F := Ideal) x0 x1 x2 (ix3 w n c) = k0_pay2 (F := Ideal) x0 x1 x2 (ix3 w n ⟨256 + c.val, by have := c.isLt; omega⟩) := by
  unfold k0_pay4
  refine extractStridedSlice_apply _ _ slices_S64x49x768_o0_0_256_S64x49x256 _ _ fun a => ?_
  match a with
  | ⟨0, _⟩ => show w.val = 0 + w.val; omega
  | ⟨1, _⟩ => show n.val = 0 + n.val; omega
  | ⟨2, _⟩ => rfl

theorem pay5_apply (x0 : Vec Ideal S3136x256 .f32) (x1 : Vec Ideal S256x768 .f32) (x2 : Vec Ideal S768 .f32)
    (w : Fin 64) (n : Fin 49) (c : Fin 256) :
    k0_pay5 (F := Ideal) x0 x1 x2 (ix3 w n c) = k0_pay2 (F := Ideal) x0 x1 x2 (ix3 w n ⟨512 + c.val, by have := c.isLt; omega⟩) := by
  unfold k0_pay5
  refine extractStridedSlice_apply _ _ slices_S64x49x768_o0_0_512_S64x49x256 _ _ fun a => ?_
  match a with
  | ⟨0, _⟩ => show w.val = 0 + w.val; omega
  | ⟨1, _⟩ => show n.val = 0 + n.val; omega
  | ⟨2, _⟩ => rfl

/-! ## The output projection -/

/-- Eight arrays [64, 49, 32] side by side along the lanes read, at channel `c`, array `c / 32` at lane `c % 32`. -/
theorem sideBySide_apply (o : Fin 8 → FVec Ideal S64x49x32 .f32) (w : Fin 64) (n : Fin 49) (c : Fin 256) :
    concatenate S64x49x256 2 [⟨S64x49x32, o 0⟩, ⟨S64x49x32, o 1⟩, ⟨S64x49x32, o 2⟩, ⟨S64x49x32, o 3⟩, ⟨S64x49x32, o 4⟩,
        ⟨S64x49x32, o 5⟩, ⟨S64x49x32, o 6⟩, ⟨S64x49x32, o 7⟩]
        concatenates_S64x49x32_S64x49x32_S64x49x32_S64x49x32_S64x49x32_S64x49x32_S64x49x32_S64x49x32_S64x49x256_d2 (ix3 w n c)
      = o (Cert.WindowAttn.headOf c) (ix3 w n (Cert.WindowAttn.laneOf c)) := by
  have h' : Shape.Concatenates ((List.ofFn fun k : Fin 8 => (⟨S64x49x32, o k⟩ : (s : Shape) × (s.Idx → EReal))).map (·.1))
      S64x49x256 (2 : Fin 3) :=
    concatenates_S64x49x32_S64x49x32_S64x49x32_S64x49x32_S64x49x32_S64x49x32_S64x49x32_S64x49x32_S64x49x256_d2
  exact concatenate_ofFn_apply (t := S64x49x256) (s₁ := S64x49x32) (2 : Fin 3) o h' rfl 32 rfl
    (ix3 w n c) (Cert.WindowAttn.headOf c) rfl (ix3 w n (Cert.WindowAttn.laneOf c)) rfl (fun b hb => by
      match b with
      | ⟨0, _⟩ => rfl
      | ⟨1, _⟩ => rfl
      | ⟨2, _⟩ => exact absurd rfl hb)

/-- The block's result at row `r = 49·w + n`, channel `j`. -/
theorem projOut_apply (o : Fin 8 → FVec Ideal S64x49x32 .f32) (x4 : Vec Ideal S256x256 .f32) (x5 : Vec Ideal S256 .f32)
    (w : Fin 64) (n : Fin 49) (j : Fin 256) (r : Fin 3136) (hr : r.val = w.val * 49 + n.val) :
    projOut (o 0) (o 1) (o 2) (o 3) (o 4) (o 5) (o 6) (o 7) x4 x5 (ix2 r j)
      = (∑ c : Fin 256, o (Cert.WindowAttn.headOf c) (ix3 w n (Cert.WindowAttn.laneOf c)) * x4 (ix2 c j)) + x5 (ix1 j) := by
  unfold projOut
  rw [addf_apply]
  refine congrArg₂ (· + ·) ?_ ?_
  · refine (Cert.DenseRows.matmul_zero_plain_apply dot_S3136x256_S256x256_S3136x256_1_0_0_1_n_n rfl rfl rfl rfl
      dotOut_l0 dotOut_r1 _ _ r j).trans ?_
    refine Finset.sum_congr rfl fun c _ => ?_
    rw [truncf_apply, truncf_apply, shapeCast_self]
    refine congrArg (· * _) ?_
    refine (Cert.Rank3Layout.shapeCast_abc_flat_apply _ shapeCasts_S64x49x256_S3136x256 w n c r hr).trans ?_
    exact sideBySide_apply o w n c
  · exact Cert.DenseRows.rowBias_cast_apply x5 shapeCasts_S256_S1x256 broadcasts_S1x256_S3136x256 r j

end Cert.WindowAttn.Ker

end
-- ==== Proof.KerHeadDots.lean ====
/-
  The two batched products of one attention head, read at an index given by coordinates.

  The scores' product contracts the lanes of the queries against the lanes of the keys, window by window: at window w,
  query token n and key token m it is the sum over the 32 lanes d of q (w, n, d) * k (w, m, d). The mixing product
  contracts the key tokens of the weights against the tokens of the values: at window w, token n and lane d it is the
  sum over the 49 tokens m of p (w, n, m) * v (w, m, d). Both accumulate into the zero constant, so nothing is added.
  Each operand index is computed axis by axis from the product's dimension numbers (a batch axis and a kept axis read
  the result index, the contracted axis reads the contraction index), and the sum over the one-axis contraction index
  is re-indexed by its one coordinate.
-/
import proofs.«137342_j17575006175665_2_alg».proof.Proof.KerTerms
import proofs.«137342_j17575006175665_2_alg».proof.Proof.Spec
import proofs.«137342_j17575006175665_2_alg».proof.Proof.LibRank3Layout
import Idealize.ShloMosaic.Lib.ValueIdx
import Idealize.ShloMosaic.Lib.ValueLayout
import Idealize.ShloMosaic.Lib.Pipeline.Value
import Idealize.ShloMosaic.PureOps.Ideal.Laws

noncomputable section

namespace Cert.WindowAttn.Ker

open Idealize.ShloMosaic Idealize.ShloMosaic.ValueIdx Cert.KernelIdeal Cert.KernelIdeal.Gen

/-! ## Queries against keys: contract the lanes, batch over the windows -/

theorem qk_lhsIdx (w : Fin 64) (n m : Fin 49) (d : Fin 32) :
    dot_S64x49x32_S64x49x32_S64x49x49_2_2_1_1_0_0.lhsIdx (ix3 w n m) ((contrEquiv1 dot_S64x49x32_S64x49x32_S64x49x49_2_2_1_1_0_0 32 rfl rfl).symm d) = ix3 w n d := by
  have hk := contrEquiv1_symm_val dot_S64x49x32_S64x49x32_S64x49x49_2_2_1_1_0_0 32 rfl rfl d
  refine funext fun a => Fin.ext ?_
  match a with
  | ⟨0, _⟩ =>
    show ((dot_S64x49x32_S64x49x32_S64x49x49_2_2_1_1_0_0.lhsIdx (ix3 w n m) _ 0 : Fin _) : ℕ) = w.val
    unfold DotDims.lhsIdx
    rw [dif_pos (show (0 : Fin S64x49x32.rank) ∈ dot_S64x49x32_S64x49x32_S64x49x49_2_2_1_1_0_0.lhsBatch by decide)]
    rfl
  | ⟨1, _⟩ =>
    show ((dot_S64x49x32_S64x49x32_S64x49x49_2_2_1_1_0_0.lhsIdx (ix3 w n m) _ 1 : Fin _) : ℕ) = n.val
    unfold DotDims.lhsIdx
    rw [dif_neg (show ¬(1 : Fin S64x49x32.rank) ∈ dot_S64x49x32_S64x49x32_S64x49x49_2_2_1_1_0_0.lhsBatch by decide),
      dif_pos (show (1 : Fin S64x49x32.rank) ∈ dot_S64x49x32_S64x49x32_S64x49x49_2_2_1_1_0_0.lhsNonContracting by decide)]
    rfl
  | ⟨2, _⟩ =>
    exact (dot_S64x49x32_S64x49x32_S64x49x49_2_2_1_1_0_0.lhsIdx_val_of_single (cl := 2) rfl (ix3 w n m) _).trans hk

theorem qk_rhsIdx (w : Fin 64) (n m : Fin 49) (d : Fin 32) :
    dot_S64x49x32_S64x49x32_S64x49x49_2_2_1_1_0_0.rhsIdx (ix3 w n m) ((contrEquiv1 dot_S64x49x32_S64x49x32_S64x49x49_2_2_1_1_0_0 32 rfl rfl).symm d) = ix3 w m d := by
  have hk := contrEquiv1_symm_val dot_S64x49x32_S64x49x32_S64x49x49_2_2_1_1_0_0 32 rfl rfl d
  refine funext fun a => Fin.ext ?_
  match a with
  | ⟨0, _⟩ =>
    show ((dot_S64x49x32_S64x49x32_S64x49x49_2_2_1_1_0_0.rhsIdx (ix3 w n m) _ 0 : Fin _) : ℕ) = w.val
    unfold DotDims.rhsIdx
    rw [dif_pos (show (0 : Fin S64x49x32.rank) ∈ dot_S64x49x32_S64x49x32_S64x49x49_2_2_1_1_0_0.rhsBatch by decide)]
    rfl
  | ⟨1, _⟩ =>
    show ((dot_S64x49x32_S64x49x32_S64x49x49_2_2_1_1_0_0.rhsIdx (ix3 w n m) _ 1 : Fin _) : ℕ) = m.val
    unfold DotDims.rhsIdx
    rw [dif_neg (show ¬(1 : Fin S64x49x32.rank) ∈ dot_S64x49x32_S64x49x32_S64x49x49_2_2_1_1_0_0.rhsBatch by decide),
      dif_pos (show (1 : Fin S64x49x32.rank) ∈ dot_S64x49x32_S64x49x32_S64x49x49_2_2_1_1_0_0.rhsNonContracting by decide)]
    rfl
  | ⟨2, _⟩ =>
    exact (dot_S64x49x32_S64x49x32_S64x49x49_2_2_1_1_0_0.rhsIdx_val_of_single (cr := 2) rfl (ix3 w n m) _).trans hk

/-- The scores' product at window `w`, tokens `n` and `m`: the sum over the lanes. -/
theorem qk_apply (q k : FVec Ideal S64x49x32 .bf16) (w : Fin 64) (n m : Fin 49) :
    matmul dot_S64x49x32_S64x49x32_S64x49x49_2_2_1_1_0_0 none q k (constant S64x49x49 .f32 0x00000000#32) (ix3 w n m)
      = ∑ d : Fin 32, q (ix3 w n d) * k (ix3 w m d) := by
  show FloatOps.matmul dot_S64x49x32_S64x49x32_S64x49x49_2_2_1_1_0_0 none q k (constant S64x49x49 .f32 0x00000000#32) (ix3 w n m) = _
  rw [Ideal.matmul_constant_zero_apply, ← Equiv.sum_comp (contrEquiv1 dot_S64x49x32_S64x49x32_S64x49x49_2_2_1_1_0_0 32 rfl rfl).symm]
  refine Finset.sum_congr rfl fun d _ => ?_
  rw [qk_lhsIdx, qk_rhsIdx]

/-! ## Weights against values: contract the tokens, batch over the windows -/

theorem pv_lhsIdx (w : Fin 64) (n : Fin 49) (d : Fin 32) (m : Fin 49) :
    dot_S64x49x49_S64x49x32_S64x49x32_2_1_1_2_0_0.lhsIdx (ix3 w n d) ((contrEquiv1 dot_S64x49x49_S64x49x32_S64x49x32_2_1_1_2_0_0 49 rfl rfl).symm m) = ix3 w n m := by
  have hk := contrEquiv1_symm_val dot_S64x49x49_S64x49x32_S64x49x32_2_1_1_2_0_0 49 rfl rfl m
  refine funext fun a => Fin.ext ?_
  match a with
  | ⟨0, _⟩ =>
    show ((dot_S64x49x49_S64x49x32_S64x49x32_2_1_1_2_0_0.lhsIdx (ix3 w n d) _ 0 : Fin _) : ℕ) = w.val
    unfold DotDims.lhsIdx
    rw [dif_pos (show (0 : Fin S64x49x49.rank) ∈ dot_S64x49x49_S64x49x32_S64x49x32_2_1_1_2_0_0.lhsBatch by decide)]
    rfl
  | ⟨1, _⟩ =>
    show ((dot_S64x49x49_S64x49x32_S64x49x32_2_1_1_2_0_0.lhsIdx (ix3 w n d) _ 1 : Fin _) : ℕ) = n.val
    unfold DotDims.lhsIdx
    rw [dif_neg (show ¬(1 : Fin S64x49x49.rank) ∈ dot_S64x49x49_S64x49x32_S64x49x32_2_1_1_2_0_0.lhsBatch by decide),
      dif_pos (show (1 : Fin S64x49x49.rank) ∈ dot_S64x49x49_S64x49x32_S64x49x32_2_1_1_2_0_0.lhsNonContracting by decide)]
    rfl
  | ⟨2, _⟩ =>
    exact (dot_S64x49x49_S64x49x32_S64x49x32_2_1_1_2_0_0.lhsIdx_val_of_single (cl := 2) rfl (ix3 w n d) _).trans hk

theorem pv_rhsIdx (w : Fin 64) (n : Fin 49) (d : Fin 32) (m : Fin 49) :
    dot_S64x49x49_S64x49x32_S64x49x32_2_1_1_2_0_0.rhsIdx (ix3 w n d) ((contrEquiv1 dot_S64x49x49_S64x49x32_S64x49x32_2_1_1_2_0_0 49 rfl rfl).symm m) = ix3 w m d := by
  have hk := contrEquiv1_symm_val dot_S64x49x49_S64x49x32_S64x49x32_2_1_1_2_0_0 49 rfl rfl m
  refine funext fun a => Fin.ext ?_
  match a with
  | ⟨0, _⟩ =>
    show ((dot_S64x49x49_S64x49x32_S64x49x32_2_1_1_2_0_0.rhsIdx (ix3 w n d) _ 0 : Fin _) : ℕ) = w.val
    unfold DotDims.rhsIdx
    rw [dif_pos (show (0 : Fin S64x49x32.rank) ∈ dot_S64x49x49_S64x49x32_S64x49x32_2_1_1_2_0_0.rhsBatch by decide)]
    rfl
  | ⟨1, _⟩ =>
    exact (dot_S64x49x49_S64x49x32_S64x49x32_2_1_1_2_0_0.rhsIdx_val_of_single (cr := 1) rfl (ix3 w n d) _).trans hk
  | ⟨2, _⟩ =>
    show ((dot_S64x49x49_S64x49x32_S64x49x32_2_1_1_2_0_0.rhsIdx (ix3 w n d) _ 2 : Fin _) : ℕ) = d.val
    unfold DotDims.rhsIdx
    rw [dif_neg (show ¬(2 : Fin S64x49x32.rank) ∈ dot_S64x49x49_S64x49x32_S64x49x32_2_1_1_2_0_0.rhsBatch by decide),
      dif_pos (show (2 : Fin S64x49x32.rank) ∈ dot_S64x49x49_S64x49x32_S64x49x32_2_1_1_2_0_0.rhsNonContracting by decide)]
    rfl

/-- The mixing product at window `w`, token `n`, lane `d`: the sum over the tokens. -/
theorem pv_apply (p : FVec Ideal S64x49x49 .bf16) (v : FVec Ideal S64x49x32 .bf16) (w : Fin 64) (n : Fin 49) (d : Fin 32) :
    matmul dot_S64x49x49_S64x49x32_S64x49x32_2_1_1_2_0_0 none p v (constant S64x49x32 .f32 0x00000000#32) (ix3 w n d)
      = ∑ m : Fin 49, p (ix3 w n m) * v (ix3 w m d) := by
  show FloatOps.matmul dot_S64x49x49_S64x49x32_S64x49x32_2_1_1_2_0_0 none p v (constant S64x49x32 .f32 0x00000000#32) (ix3 w n d) = _
  rw [Ideal.matmul_constant_zero_apply, ← Equiv.sum_comp (contrEquiv1 dot_S64x49x49_S64x49x32_S64x49x32_2_1_1_2_0_0 49 rfl rfl).symm]
  refine Finset.sum_congr rfl fun m _ => ?_
  rw [pv_lhsIdx, pv_rhsIdx]

end Cert.WindowAttn.Ker

end
-- ==== Proof.KerHeadStages.lean ====
/-
  The stages of one attention head of the kernel, each read at an index given by coordinates.

  Lanes off … off+31 of a [64, 49, 256] array read, at (w, n, d), the array at (w, n, off + d). The scaled queries are
  those lanes times the scale. The scores at (w, n, m) are the sum over the lanes of query times key, plus the bias slab
  at (n, m): the slab [1, 49, 49] is viewed as a matrix, viewed back, and laid over the 64 windows, which reads it at
  (0, n, m) whatever the window. A row's maximum at (w, n) is the fold of max over the tokens m from the pattern of minus
  infinity, a row's sum the plain sum over m; each is viewed as [64, 49, 1] and laid along the third axis, which reads it
  at (w, n) whatever m. So the exponentials are exp (S (w, n, m) - max over m' of S (w, n, m')), the weights are the
  exponentials divided by their row's sum, and the mixed values are the sum over m of weight times value.
-/
import proofs.«137342_j17575006175665_2_alg».proof.Proof.KerTerms
import proofs.«137342_j17575006175665_2_alg».proof.Proof.Spec
import proofs.«137342_j17575006175665_2_alg».proof.Proof.LibRank3Layout
import Idealize.ShloMosaic.Lib.ValueIdx
import Idealize.ShloMosaic.Lib.ValueLayout
import Idealize.ShloMosaic.Lib.Pipeline.Value
import Idealize.ShloMosaic.PureOps.Ideal.Laws
import proofs.«137342_j17575006175665_2_alg».proof.Proof.KerHeadDots

noncomputable section

namespace Cert.WindowAttn.Ker

open Idealize.ShloMosaic Idealize.ShloMosaic.ValueIdx Cert.KernelIdeal Cert.KernelIdeal.Gen

/-- Lanes `off … off+31`: at `(w, n, d)` the array at `(w, n, c)` with `c = off + d`. -/
theorem lanes_apply (off : Nat) (hs : S64x49x256.Slices ![0, 0, off] S64x49x32) (A : FVec Ideal S64x49x256 .f32)
    (w : Fin 64) (n : Fin 49) (d : Fin 32) (c : Fin 256) (hc : c.val = off + d.val) :
    lanes off hs A (ix3 w n d) = A (ix3 w n c) := by
  unfold lanes
  exact extractStridedSlice_apply _ A hs (ix3 w n d) (ix3 w n c) (fun a => by
    match a with
    | ⟨0, _⟩ => exact (Nat.zero_add _).symm
    | ⟨1, _⟩ => exact (Nat.zero_add _).symm
    | ⟨2, _⟩ => exact hc)

/-- Narrowing changes nothing on the extended reals. -/
theorem narrow_apply (A : FVec Ideal S64x49x32 .f32) (i : S64x49x32.Idx) : narrow A i = A i := rfl

/-- The scaled queries: the lane times the scale. -/
theorem scaledQ_apply (off : Nat) (hs : S64x49x256.Slices ![0, 0, off] S64x49x32) (Q : FVec Ideal S64x49x256 .f32)
    (w : Fin 64) (n : Fin 49) (d : Fin 32) (c : Fin 256) (hc : c.val = off + d.val) :
    scaledQ off hs Q (ix3 w n d) = Q (ix3 w n c) * qscale := by
  unfold scaledQ
  rw [truncf_apply, mulf_apply, broadcast_apply, lanes_apply off hs Q w n d c hc]
  rfl

/-- The bias slab laid over the windows reads the slab at `(0, n, m)`. -/
theorem biasOver_apply (B : Vec Ideal S1x49x49 .f32) (w : Fin 64) (n m : Fin 49) :
    broadcastTo S64x49x49 (shapeCast S1x49x49 (shapeCast S49x49 B shapeCasts_S1x49x49_S49x49) shapeCasts_S49x49_S1x49x49)
      broadcasts_S1x49x49_S64x49x49 (ix3 w n m) = B (ix3 (0 : Fin 1) n m) := by
  refine (broadcastTo_apply _ broadcasts_S1x49x49_S64x49x49 (ix3 w n m) (ix3 (0 : Fin 1) n m) (fun a => ?_)).trans ?_
  · match a with
    | ⟨0, _⟩ => rfl
    | ⟨1, _⟩ => rfl
    | ⟨2, _⟩ => rfl
  · exact (shapeCast_ab_1ab_apply _ shapeCasts_S49x49_S1x49x49 0 n m).trans
      (shapeCast_1ab_ab_apply B shapeCasts_S1x49x49_S49x49 n m)

/-- The scores: queries against keys over the lanes, plus the bias. -/
theorem scoresOf_apply (q k : FVec Ideal S64x49x32 .bf16) (B : Vec Ideal S1x49x49 .f32) (w : Fin 64) (n m : Fin 49) :
    scoresOf q k B (ix3 w n m) = (∑ d : Fin 32, q (ix3 w n d) * k (ix3 w m d)) + B (ix3 (0 : Fin 1) n m) := by
  unfold scoresOf
  rw [addf_apply, qk_apply, biasOver_apply]

/-- The index a reduction over the third axis inserts. -/
theorem lift_apply (w : Fin 64) (n : Fin 49) (m : Fin 49) :
    reduces_S64x49x49_S64x49.lift (ix2 w n) m = ix3 w n m := by
  funext a; apply Fin.ext
  match a with
  | ⟨0, _⟩ => rfl
  | ⟨1, _⟩ => rfl
  | ⟨2, _⟩ => rfl

/-- A row's maximum: the fold of max over the tokens from minus infinity. -/
theorem rowMax_apply (S : FVec Ideal S64x49x49 .f32) (w : Fin 64) (n : Fin 49) :
    multiReduction .maximumf [2] S64x49 S 0xFF800000#32 reduces_S64x49x49_S64x49 (.inl rfl) rfl (ix2 w n)
      = (Finset.univ : Finset (Fin 49)).fold max negInf (fun m => S (ix3 w n m)) := by
  refine (Ideal.multiReduction_maximumf_single S _ reduces_S64x49x49_S64x49 _ _ (ix2 w n)).trans ?_
  show (Finset.univ : Finset (Fin 49)).fold max (Ideal.ofBits .f32 0xFF800000#32)
    (fun m => S (reduces_S64x49x49_S64x49.lift (ix2 w n) m)) = _
  exact Finset.fold_congr fun m _ => congrArg S (lift_apply w n m)

/-- A row's sum: the sum over the tokens. -/
theorem rowSum_apply (E : FVec Ideal S64x49x49 .f32) (w : Fin 64) (n : Fin 49) :
    multiReduction .add [2] S64x49 E 0x00000000#32 reduces_S64x49x49_S64x49 (.inl rfl) rfl (ix2 w n)
      = ∑ m : Fin 49, E (ix3 w n m) := by
  refine (Ideal.multiReduction_add_single E _ reduces_S64x49x49_S64x49 _ _ (ix2 w n)).trans ?_
  show ∑ m : Fin 49, E (reduces_S64x49x49_S64x49.lift (ix2 w n) m) = _
  exact Finset.sum_congr rfl fun m _ => congrArg E (lift_apply w n m)

/-- The exponentials: each score less its row's maximum, exponentiated. -/
theorem expOf_apply (S : FVec Ideal S64x49x49 .f32) (w : Fin 64) (n m : Fin 49) :
    expOf S (ix3 w n m)
      = Ideal.exp (S (ix3 w n m) - (Finset.univ : Finset (Fin 49)).fold max negInf (fun m' => S (ix3 w n m'))) := by
  unfold expOf
  show Ideal.exp (subf S _ (ix3 w n m)) = _
  rw [subf_apply, Cert.Rank3Layout.alongThird_apply (a := 64) (b := 49) (c := 49) _ shapeCasts_S64x49_S64x49x1
    broadcasts_S64x49x1_S64x49x49 w n m, rowMax_apply]

/-- The weights: each exponential divided by its row's sum. -/
theorem probsOf_apply (E : FVec Ideal S64x49x49 .f32) (w : Fin 64) (n m : Fin 49) :
    probsOf E (ix3 w n m) = Ideal.div (E (ix3 w n m)) (∑ m' : Fin 49, E (ix3 w n m')) := by
  unfold probsOf
  rw [truncf_apply, divf_apply, Cert.Rank3Layout.alongThird_apply (a := 64) (b := 49) (c := 49) _ shapeCasts_S64x49_S64x49x1
    broadcasts_S64x49x1_S64x49x49 w n m, rowSum_apply]

/-- The mixed values, accumulated into zero: the sum over the tokens of weight times value. -/
theorem mixOf_zero_apply (p : FVec Ideal S64x49x49 .bf16) (v : FVec Ideal S64x49x32 .bf16) (w : Fin 64) (n : Fin 49) (d : Fin 32) :
    mixOf p v (constant S64x49x32 .f32 0x00000000#32) (ix3 w n d) = ∑ m : Fin 49, p (ix3 w n m) * v (ix3 w m d) := by
  unfold mixOf
  exact pv_apply p v w n d

end Cert.WindowAttn.Ker

end
-- ==== Proof.KerHead.lean ====
/-
  One attention head of the kernel, read at an index, is the head's mixed value row of the mathematics.

  Over a block's 64 windows the projected queries, keys and values are the three 256-column parts of each window's
  projected rows P w : 49 tokens by 768 columns; head h, whose lanes start at off = 32·h, reads query lane d at column
  32h + d, key lane d at column 256 + 32h + d, value lane d at column 512 + 32h + d: the columns the mathematics names
  col 0 h d, col 1 h d, col 2 h d. With that, stage by stage and at every window w: the scores are score (P w), the
  row maxima top (P w), the exponentials ex (P w), the row sums den (P w), the weights prob (P w), and the head's result
  at (w, n, d) is mix (P w) bias h n d. The same operations in the same order on both sides; nothing is rearranged and
  nothing is asked to be finite.
-/
import proofs.«137342_j17575006175665_2_alg».proof.Proof.KerTerms
import proofs.«137342_j17575006175665_2_alg».proof.Proof.Spec
import proofs.«137342_j17575006175665_2_alg».proof.Proof.LibRank3Layout
import Idealize.ShloMosaic.Lib.ValueIdx
import Idealize.ShloMosaic.Lib.ValueLayout
import Idealize.ShloMosaic.Lib.Pipeline.Value
import Idealize.ShloMosaic.PureOps.Ideal.Laws
import proofs.«137342_j17575006175665_2_alg».proof.Proof.KerHeadStages

noncomputable section

namespace Cert.WindowAttn.Ker

open Idealize.ShloMosaic Idealize.ShloMosaic.ValueIdx Cert.KernelIdeal Cert.KernelIdeal.Gen

theorem head_apply (h : Fin 8) (off : Nat) (hoff : off = 32 * h.val)
    (hs : Cert.KernelIdeal.S64x49x256.Slices ![0, 0, off] Cert.KernelIdeal.S64x49x32)
    (Q K V : FVec Ideal Cert.KernelIdeal.S64x49x256 .f32) (B : Vec Ideal Cert.KernelIdeal.S1x49x49 .f32)
    (P : Fin 64 → Fin 49 → Fin 768 → EReal) (bias : Fin 8 → Fin 49 → Fin 49 → EReal)
    (hQ : ∀ (w : Fin 64) (n : Fin 49) (c : Fin 256), Q (ix3 w n c) = P w n ⟨c.val, by have := c.isLt; omega⟩)
    (hK : ∀ (w : Fin 64) (n : Fin 49) (c : Fin 256), K (ix3 w n c) = P w n ⟨256 + c.val, by have := c.isLt; omega⟩)
    (hV : ∀ (w : Fin 64) (n : Fin 49) (c : Fin 256), V (ix3 w n c) = P w n ⟨512 + c.val, by have := c.isLt; omega⟩)
    (hB : ∀ (n m : Fin 49), B (ix3 (0 : Fin 1) n m) = bias h n m)
    (w : Fin 64) (n : Fin 49) (d : Fin 32) :
    headOf off hs Q K V B (ix3 w n d) = Cert.WindowAttn.mix (P w) bias h n d := by
  -- lane d' of head h sits at channel off + d' of each 256-column part
  have hlt : ∀ d' : Fin 32, off + d'.val < 256 := fun d' => by have := h.isLt; have := d'.isLt; omega
  -- the scaled queries, the keys and the values of head h are the columns col 0, col 1, col 2 of the projected rows
  have hq : ∀ (n' : Fin 49) (d' : Fin 32), scaledQ off hs Q (ix3 w n' d') = P w n' (col 0 h d') * qscale := fun n' d' => by
    rw [scaledQ_apply off hs Q w n' d' ⟨off + d'.val, hlt d'⟩ rfl, hQ]
    exact congrArg (fun c => P w n' c * qscale)
      (Fin.ext (by show off + d'.val = 0 * 256 + h.val * 32 + d'.val; omega))
  have hk : ∀ (m : Fin 49) (d' : Fin 32), narrow (lanes off hs K) (ix3 w m d') = P w m (col 1 h d') := fun m d' => by
    rw [narrow_apply, lanes_apply off hs K w m d' ⟨off + d'.val, hlt d'⟩ rfl, hK]
    exact congrArg (P w m) (Fin.ext (by show 256 + (off + d'.val) = 1 * 256 + h.val * 32 + d'.val; omega))
  have hv : ∀ (m : Fin 49) (d' : Fin 32), narrow (lanes off hs V) (ix3 w m d') = P w m (col 2 h d') := fun m d' => by
    rw [narrow_apply, lanes_apply off hs V w m d' ⟨off + d'.val, hlt d'⟩ rfl, hV]
    exact congrArg (P w m) (Fin.ext (by show 512 + (off + d'.val) = 2 * 256 + h.val * 32 + d'.val; omega))
  -- the scores
  have hS : ∀ n' m : Fin 49, scoresOf (scaledQ off hs Q) (narrow (lanes off hs K)) B (ix3 w n' m) = score (P w) bias h n' m := fun n' m => by
    rw [scoresOf_apply, hB]
    unfold score
    exact congrArg (· + bias h n' m) (Finset.sum_congr rfl fun d' _ => by rw [hq, hk])
  -- the exponentials relative to the row maxima
  have hE : ∀ n' m : Fin 49, expOf (scoresOf (scaledQ off hs Q) (narrow (lanes off hs K)) B) (ix3 w n' m) = ex (P w) bias h n' m := fun n' m => by
    rw [expOf_apply, hS]
    unfold ex top
    exact congrArg (fun t => Ideal.exp (score (P w) bias h n' m - t)) (Finset.fold_congr fun m' _ => hS n' m')
  -- the weights
  have hP : ∀ n' m : Fin 49, probsOf (expOf (scoresOf (scaledQ off hs Q) (narrow (lanes off hs K)) B)) (ix3 w n' m) = prob (P w) bias h n' m := fun n' m => by
    rw [probsOf_apply, hE]
    unfold prob den
    exact congrArg (Ideal.div (ex (P w) bias h n' m)) (Finset.sum_congr rfl fun m' _ => hE n' m')
  -- the weights against the values
  unfold headOf
  rw [mixOf_zero_apply]
  unfold mix
  exact Finset.sum_congr rfl fun m _ => by rw [hP, hv]

end Cert.WindowAttn.Ker

end
-- ==== Proof.KerBlock.lean ====
/-
  The block's result, read at a row and a channel, is the windowed attention of the mathematics.

  The body's one store covers the whole output block and its loads of the rows, the two weight matrices and the two bias
  vectors are whole, so the block's buffer after the body is the body's payload of the loaded blocks; the eight bias
  slabs are the eight [1, 49, 49] slices of the bias array, slab h reading the array at (h, n, m). Row r = 49·w + n of
  the block is token n of window w. The joint projection of the block at (w, n, o) is qkv of window w's rows at (n, o),
  with the kernel's transposed weights read at (c, o); its three 256-column parts are the heads' queries, keys and
  values, so head h of the body at (w, n, d) is mix of the window's projected rows (each of the eight heads written out
  in the body is the same term at its own lane offset 32·h and bias slab h). The heads side by side through the output
  projection, with the transposed output weights read at (c, j), plus the bias, is win at (n, j).
-/
import proofs.«137342_j17575006175665_2_alg».proof.Proof.KerTerms
import proofs.«137342_j17575006175665_2_alg».proof.Proof.Spec
import proofs.«137342_j17575006175665_2_alg».proof.Proof.LibRank3Layout
import Idealize.ShloMosaic.Lib.ValueIdx
import Idealize.ShloMosaic.Lib.ValueLayout
import Idealize.ShloMosaic.Lib.Pipeline.Value
import Idealize.ShloMosaic.PureOps.Ideal.Laws
import proofs.«137342_j17575006175665_2_alg».proof.Proof.KerDense
import proofs.«137342_j17575006175665_2_alg».proof.Proof.KerHead

noncomputable section

namespace Cert.WindowAttn.Ker

open Idealize.ShloMosaic Idealize.ShloMosaic.ValueIdx Cert.KernelIdeal Cert.KernelIdeal.Gen

/-! ## Whole loads, and the bias slabs -/

theorem offs2_zero : (![0, 0] : Fin 2 → Nat) = fun _ => 0 := funext fun a => by fin_cases a <;> rfl
theorem offs1_zero : (![0] : Fin 1 → Nat) = fun _ => 0 := funext fun a => by fin_cases a <;> rfl

/-- The slab loaded from offset `(hh, 0, 0)` of the bias array reads, at `(0, n, m)`, the array at `(hh, n, m)`. -/
theorem ldBias_apply (x3 : Vec Ideal S8x49x49 .f32) (hh : Nat)
    (inb : ∀ a, (![hh, 0, 0] : Fin 3 → Nat) a + S1x49x49.size a ≤ S8x49x49.size a)
    (h : Fin 8) (hv : h.val = hh) (n m : Fin 49) :
    View.ld x3 (Rect.unit (s := S8x49x49) ![hh, 0, 0] S1x49x49.size inb) (ix3 (0 : Fin 1) n m) = x3 (ix3 h n m) := by
  show x3 _ = x3 _
  congr 1
  funext a
  apply Fin.ext
  match a with
  | ⟨0, _⟩ => show hh + 1 * 0 = h.val; omega
  | ⟨1, _⟩ => show 0 + 1 * n.val = n.val; omega
  | ⟨2, _⟩ => show 0 + 1 * m.val = m.val; omega

/-! ## The windows' projected rows -/

/-- Window `w`'s projected rows: `qkv` of its 49 rows of the block, the weights read transposed. -/
def projRows (x0 : Vec Ideal S3136x256 .f32) (x1 : Vec Ideal S256x768 .f32) (x2 : Vec Ideal S768 .f32)
    (w : Fin 64) : Fin 49 → Fin 768 → EReal :=
  qkv (fun n' c => x0 (ix2 (⟨w.val * 49 + n'.val, by have := w.isLt; have := n'.isLt; omega⟩ : Fin 3136) c))
    (fun o c => x1 (ix2 c o)) (fun o => x2 (ix1 o))

/-- The block's joint projection at `(w, n, o)` is window `w`'s projected row `n` at column `o`. -/
theorem pay2_rows (x0 : Vec Ideal S3136x256 .f32) (x1 : Vec Ideal S256x768 .f32) (x2 : Vec Ideal S768 .f32)
    (w : Fin 64) (n : Fin 49) (o : Fin 768) :
    k0_pay2 (F := Ideal) x0 x1 x2 (ix3 w n o) = projRows x0 x1 x2 w n o :=
  projIn_apply x0 x1 x2 w n o ⟨w.val * 49 + n.val, by have := w.isLt; have := n.isLt; omega⟩ rfl

theorem pay3_rows (x0 : Vec Ideal S3136x256 .f32) (x1 : Vec Ideal S256x768 .f32) (x2 : Vec Ideal S768 .f32)
    (w : Fin 64) (n : Fin 49) (c : Fin 256) :
    k0_pay3 (F := Ideal) x0 x1 x2 (ix3 w n c) = projRows x0 x1 x2 w n ⟨c.val, by have := c.isLt; omega⟩ :=
  (pay3_apply x0 x1 x2 w n c).trans (pay2_rows x0 x1 x2 w n _)

theorem pay4_rows (x0 : Vec Ideal S3136x256 .f32) (x1 : Vec Ideal S256x768 .f32) (x2 : Vec Ideal S768 .f32)
    (w : Fin 64) (n : Fin 49) (c : Fin 256) :
    k0_pay4 (F := Ideal) x0 x1 x2 (ix3 w n c) = projRows x0 x1 x2 w n ⟨256 + c.val, by have := c.isLt; omega⟩ :=
  (pay4_apply x0 x1 x2 w n c).trans (pay2_rows x0 x1 x2 w n _)

theorem pay5_rows (x0 : Vec Ideal S3136x256 .f32) (x1 : Vec Ideal S256x768 .f32) (x2 : Vec Ideal S768 .f32)
    (w : Fin 64) (n : Fin 49) (c : Fin 256) :
    k0_pay5 (F := Ideal) x0 x1 x2 (ix3 w n c) = projRows x0 x1 x2 w n ⟨512 + c.val, by have := c.isLt; omega⟩ :=
  (pay5_apply x0 x1 x2 w n c).trans (pay2_rows x0 x1 x2 w n _)

/-! ## The eight heads -/

/-- The body's eight heads: head `h` at lane offset `32·h` with bias slab `h`. -/
def heads (x0 : Vec Ideal S3136x256 .f32) (x1 : Vec Ideal S256x768 .f32) (x2 : Vec Ideal S768 .f32)
    (x3 : Vec Ideal S8x49x49 .f32) : Fin 8 → FVec Ideal S64x49x32 .f32
  | ⟨0, _⟩ => headOf 0 slices_S64x49x256_o0_0_0_S64x49x32 (k0_pay3 x0 x1 x2) (k0_pay4 x0 x1 x2) (k0_pay5 x0 x1 x2) (View.ld x3 r0_3)
  | ⟨1, _⟩ => headOf 32 slices_S64x49x256_o0_0_32_S64x49x32 (k0_pay3 x0 x1 x2) (k0_pay4 x0 x1 x2) (k0_pay5 x0 x1 x2) (View.ld x3 r0_4)
  | ⟨2, _⟩ => headOf 64 slices_S64x49x256_o0_0_64_S64x49x32 (k0_pay3 x0 x1 x2) (k0_pay4 x0 x1 x2) (k0_pay5 x0 x1 x2) (View.ld x3 r0_5)
  | ⟨3, _⟩ => headOf 96 slices_S64x49x256_o0_0_96_S64x49x32 (k0_pay3 x0 x1 x2) (k0_pay4 x0 x1 x2) (k0_pay5 x0 x1 x2) (View.ld x3 r0_6)
  | ⟨4, _⟩ => headOf 128 slices_S64x49x256_o0_0_128_S64x49x32 (k0_pay3 x0 x1 x2) (k0_pay4 x0 x1 x2) (k0_pay5 x0 x1 x2) (View.ld x3 r0_7)
  | ⟨5, _⟩ => headOf 160 slices_S64x49x256_o0_0_160_S64x49x32 (k0_pay3 x0 x1 x2) (k0_pay4 x0 x1 x2) (k0_pay5 x0 x1 x2) (View.ld x3 r0_8)
  | ⟨6, _⟩ => headOf 192 slices_S64x49x256_o0_0_192_S64x49x32 (k0_pay3 x0 x1 x2) (k0_pay4 x0 x1 x2) (k0_pay5 x0 x1 x2) (View.ld x3 r0_9)
  | ⟨7, _⟩ => headOf 224 slices_S64x49x256_o0_0_224_S64x49x32 (k0_pay3 x0 x1 x2) (k0_pay4 x0 x1 x2) (k0_pay5 x0 x1 x2) (View.ld x3 r0_10)

/-- Head `h` of the body at `(w, n, d)` is the mixed value row of window `w`'s projected rows. -/
theorem heads_apply (x0 : Vec Ideal S3136x256 .f32) (x1 : Vec Ideal S256x768 .f32) (x2 : Vec Ideal S768 .f32)
    (x3 : Vec Ideal S8x49x49 .f32) (h : Fin 8) (w : Fin 64) (n : Fin 49) (d : Fin 32) :
    heads x0 x1 x2 x3 h (ix3 w n d) = mix (projRows x0 x1 x2 w) (fun h n' m' => x3 (ix3 h n' m')) h n d := by
  match h with
  | ⟨0, _⟩ =>
    exact head_apply 0 0 rfl slices_S64x49x256_o0_0_0_S64x49x32 (k0_pay3 x0 x1 x2) (k0_pay4 x0 x1 x2) (k0_pay5 x0 x1 x2) (View.ld x3 r0_3)
      (projRows x0 x1 x2) (fun h n' m' => x3 (ix3 h n' m')) (pay3_rows x0 x1 x2) (pay4_rows x0 x1 x2) (pay5_rows x0 x1 x2)
      (fun n' m' => ldBias_apply x3 0 _ 0 rfl n' m') w n d
  | ⟨1, _⟩ =>
    exact head_apply 1 32 rfl slices_S64x49x256_o0_0_32_S64x49x32 (k0_pay3 x0 x1 x2) (k0_pay4 x0 x1 x2) (k0_pay5 x0 x1 x2) (View.ld x3 r0_4)
      (projRows x0 x1 x2) (fun h n' m' => x3 (ix3 h n' m')) (pay3_rows x0 x1 x2) (pay4_rows x0 x1 x2) (pay5_rows x0 x1 x2)
      (fun n' m' => ldBias_apply x3 1 _ 1 rfl n' m') w n d
  | ⟨2, _⟩ =>
    exact head_apply 2 64 rfl slices_S64x49x256_o0_0_64_S64x49x32 (k0_pay3 x0 x1 x2) (k0_pay4 x0 x1 x2) (k0_pay5 x0 x1 x2) (View.ld x3 r0_5)
      (projRows x0 x1 x2) (fun h n' m' => x3 (ix3 h n' m')) (pay3_rows x0 x1 x2) (pay4_rows x0 x1 x2) (pay5_rows x0 x1 x2)
      (fun n' m' => ldBias_apply x3 2 _ 2 rfl n' m') w n d
  | ⟨3, _⟩ =>
    exact head_apply 3 96 rfl slices_S64x49x256_o0_0_96_S64x49x32 (k0_pay3 x0 x1 x2) (k0_pay4 x0 x1 x2) (k0_pay5 x0 x1 x2) (View.ld x3 r0_6)
      (projRows x0 x1 x2) (fun h n' m' => x3 (ix3 h n' m')) (pay3_rows x0 x1 x2) (pay4_rows x0 x1 x2) (pay5_rows x0 x1 x2)
      (fun n' m' => ldBias_apply x3 3 _ 3 rfl n' m') w n d
  | ⟨4, _⟩ =>
    exact head_apply 4 128 rfl slices_S64x49x256_o0_0_128_S64x49x32 (k0_pay3 x0 x1 x2) (k0_pay4 x0 x1 x2) (k0_pay5 x0 x1 x2) (View.ld x3 r0_7)
      (projRows x0 x1 x2) (fun h n' m' => x3 (ix3 h n' m')) (pay3_rows x0 x1 x2) (pay4_rows x0 x1 x2) (pay5_rows x0 x1 x2)
      (fun n' m' => ldBias_apply x3 4 _ 4 rfl n' m') w n d
  | ⟨5, _⟩ =>
    exact head_apply 5 160 rfl slices_S64x49x256_o0_0_160_S64x49x32 (k0_pay3 x0 x1 x2) (k0_pay4 x0 x1 x2) (k0_pay5 x0 x1 x2) (View.ld x3 r0_8)
      (projRows x0 x1 x2) (fun h n' m' => x3 (ix3 h n' m')) (pay3_rows x0 x1 x2) (pay4_rows x0 x1 x2) (pay5_rows x0 x1 x2)
      (fun n' m' => ldBias_apply x3 5 _ 5 rfl n' m') w n d
  | ⟨6, _⟩ =>
    exact head_apply 6 192 rfl slices_S64x49x256_o0_0_192_S64x49x32 (k0_pay3 x0 x1 x2) (k0_pay4 x0 x1 x2) (k0_pay5 x0 x1 x2) (View.ld x3 r0_9)
      (projRows x0 x1 x2) (fun h n' m' => x3 (ix3 h n' m')) (pay3_rows x0 x1 x2) (pay4_rows x0 x1 x2) (pay5_rows x0 x1 x2)
      (fun n' m' => ldBias_apply x3 6 _ 6 rfl n' m') w n d
  | ⟨7, _⟩ =>
    exact head_apply 7 224 rfl slices_S64x49x256_o0_0_224_S64x49x32 (k0_pay3 x0 x1 x2) (k0_pay4 x0 x1 x2) (k0_pay5 x0 x1 x2) (View.ld x3 r0_10)
      (projRows x0 x1 x2) (fun h n' m' => x3 (ix3 h n' m')) (pay3_rows x0 x1 x2) (pay4_rows x0 x1 x2) (pay5_rows x0 x1 x2)
      (fun n' m' => ldBias_apply x3 7 _ 7 rfl n' m') w n d

/-! ## The block -/

/-- The block's buffer after the body at row `r = 49·w + n`, channel `j`: the windowed attention of window `w`'s rows. -/
theorem block_apply (x0 : Vec Ideal S3136x256 .f32) (x1 : Vec Ideal S256x768 .f32) (x2 : Vec Ideal S768 .f32)
    (x3 : Vec Ideal S8x49x49 .f32) (x4 : Vec Ideal S256x256 .f32) (x5 : Vec Ideal S256 .f32)
    (w : Fin 64) (n : Fin 49) (j : Fin 256) (r : Fin 3136) (hr : r.val = w.val * 49 + n.val) :
    out0_6 (F := Ideal) x0 x1 x2 x3 x4 x5 (ix2 r j)
      = Cert.WindowAttn.win (fun n' c => x0 (ix2 (⟨w.val * 49 + n'.val, by have := w.isLt; have := n'.isLt; omega⟩ : Fin 3136) c))
          (fun o c => x1 (ix2 c o)) (fun o => x2 (ix1 o)) (fun j' c => x4 (ix2 c j')) (fun j' => x5 (ix1 j'))
          (fun h n' m' => x3 (ix3 h n' m')) n j := by
  unfold out0_6
  rw [View.canon_unit_zero offs2_zero]
  simp only [View.ld_unit_zero (S := S3136x256) offs2_zero, View.ld_unit_zero (S := S256x768) offs2_zero,
    View.ld_unit_zero (S := S768) offs1_zero, View.ld_unit_zero (S := S256x256) offs2_zero,
    View.ld_unit_zero (S := S256) offs1_zero]
  rw [payload_eq]
  unfold blockTerm
  refine (projOut_apply (heads x0 x1 x2 x3) x4 x5 w n j r hr).trans ?_
  unfold win mixed
  refine congrArg (· + x5 (ix1 j)) (Finset.sum_congr rfl fun c _ => ?_)
  rw [heads_apply]
  rfl

end Cert.WindowAttn.Ker

end
-- ==== Proof.KerArray.lean ====
/-
  From blocks to the whole result. At grid point t the body writes rows [3136·t, 3136·(t+1)) of the result's 200704 rows;
  row 3136·t + 49·w + n is token n of window 64·t + w, and the body's value there is the window function of that
  window's rows — so every point writes its rows of ONE array, the specification laid out by rows, and the 64 blocks
  tile it. The host then re-lays the rows as [4096, 49, 256]: row 49·b + n becomes (b, n).
-/
import proofs.«137342_j17575006175665_2_alg».proof.Proof.KerHost
import proofs.«137342_j17575006175665_2_alg».proof.Proof.KerBlock
import proofs.«137342_j17575006175665_2_alg».proof.Proof.Spec
import proofs.«137342_j17575006175665_2_alg».proof.Proof.LibRank3Layout
import Idealize.ShloMosaic.Lib.ValueIdx
import Idealize.ShloMosaic.Lib.ValueLayout
import Idealize.ShloMosaic.Lib.Pipeline.Value
import Idealize.ShloMosaic.Lib.StableHlo.Run

noncomputable section

namespace Cert.WindowAttn.Ker

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The window function does not see how its arguments are spelt. -/
theorem win_congr {X X' : Fin 49 → Fin 256 → EReal} {W W' : Fin 768 → Fin 256 → EReal} {bq bq' : Fin 768 → EReal}
    {Wp Wp' : Fin 256 → Fin 256 → EReal} {bp bp' : Fin 256 → EReal} {bias bias' : Fin 8 → Fin 49 → Fin 49 → EReal}
    (hX : ∀ n c, X n c = X' n c) (hW : ∀ o c, W o c = W' o c) (hbq : ∀ o, bq o = bq' o)
    (hWp : ∀ j c, Wp j c = Wp' j c) (hbp : ∀ j, bp j = bp' j) (hbias : ∀ h n k, bias h n k = bias' h n k)
    {n n' : Fin 49} {j j' : Fin 256} (hn : n = n') (hj : j = j') :
    Cert.WindowAttn.win X W bq Wp bp bias n j = Cert.WindowAttn.win X' W' bq' Wp' bp' bias' n' j' := by
  subst hn hj
  obtain rfl : X = X' := funext fun n => funext (hX n)
  obtain rfl : W = W' := funext fun o => funext (hW o)
  obtain rfl : bq = bq' := funext hbq
  obtain rfl : Wp = Wp' := funext fun j => funext (hWp j)
  obtain rfl : bp = bp' := funext hbp
  obtain rfl : bias = bias' := funext fun h => funext fun n => funext (hbias h n)
  rfl

/-- The specification laid out by rows: row `R = 49·b + n`, channel `j`, is the result at `(b, n, j)`. -/
def rowsOf (G : S4096x49x256.Idx → EReal) : S200704x256.Idx → EReal := fun i =>
  G (ix3 (⟨(i 0).val / 49, by have h : (i 0).val < 200704 := (i 0).isLt; omega⟩ : Fin 4096)
    (⟨(i 0).val % 49, Nat.mod_lt _ (by decide)⟩ : Fin 49) (⟨(i 1).val, (i 1).isLt⟩ : Fin 256))

/-- What the kernel computes, as one function of the argument arrays as launched. -/
def kerG (c : Dev nD) : S4096x49x256.Idx → EReal :=
  Cert.WindowAttn.G (m ((c : Thread nD τ).loc main_arg0)) (m ((c : Thread nD τ).loc main_arg1))
    (m ((c : Thread nD τ).loc main_arg2)) (m ((c : Thread nD τ).loc main_arg3)) (m ((c : Thread nD τ).loc main_arg4))
    (biasArr (m ((c : Thread nD τ).loc main_arg5)) (m ((c : Thread nD τ).loc main_arg6)))

/-- The body's value at row `r` of point `t`'s block is the specification at row `3136·t + r`. -/
theorem out_block_eq (c : Dev nD) (t : Fin cfg0.N) (r : Fin 3136) (j : Fin 256) (R : Fin 200704)
    (hR : R.val = 3136 * t.val + r.val) :
    out0_6 (F := Ideal) (iblk m c 0 t) (iblk m c 1 t) (iblk m c 2 t) (iblk m c 3 t) (iblk m c 4 t) (iblk m c 5 t) (ix2 r j)
      = rowsOf (kerG m c) (ix2 R j) := by
  have ht := t_lt t
  have hr := r.isLt
  refine (block_apply (iblk m c 0 t) (iblk m c 1 t) (iblk m c 2 t) (iblk m c 3 t) (iblk m c 4 t) (iblk m c 5 t)
    (⟨r.val / 49, by omega⟩ : Fin 64) (⟨r.val % 49, Nat.mod_lt _ (by decide)⟩ : Fin 49) j r
    (by show r.val = r.val / 49 * 49 + r.val % 49; omega)).trans ?_
  unfold rowsOf kerG Cert.WindowAttn.G
  refine win_congr (fun n' c' => ?_) (fun o c' => ?_) (fun o => ?_) (fun j' c' => ?_) (fun j' => ?_) (fun h n' k => ?_) ?_ rfl
  · -- the window's rows
    refine (iblk0_apply m c t _ c' (⟨3136 * t.val + (r.val / 49 * 49 + n'.val), by have := n'.isLt; omega⟩ : Fin 200704) rfl).trans ?_
    rw [V_v12]
    exact Cert.Rank3Layout.shapeCast_abc_flat_apply _ shapeCasts_S4096x49x256_S200704x256
      (⟨R.val / 49, by have := R.isLt; omega⟩ : Fin 4096) n' c' _ (by
        show 3136 * t.val + (r.val / 49 * 49 + n'.val) = R.val / 49 * 49 + n'.val
        have := n'.isLt; omega)
  · rw [iblk1_eq, V_v10]
    exact transpose_ix2_apply _ transposes_S768x256_S256x768_1_0 c' o
  · rw [iblk2_eq, V_main_arg2]
  · rw [iblk4_eq, V_v11]
    exact transpose_ix2_apply _ transposes_S256x256_S256x256_1_0 c' j'
  · rw [iblk5_eq, V_main_arg4]
  · rw [iblk3_eq, V_v9]
  · exact Fin.ext (by show r.val % 49 = R.val % 49; omega)

/-! ## What each point writes back, and the whole array -/

/-- Point `t` writes back rows [3136·t, 3136·(t+1)) of the specification laid out by rows. -/
theorem flushed6_eq (c : Dev nD) (t : Fin cfg0.N) :
    (dats m 0 c).flushed 6 t = ((cfg0.win 6).blk t).view.read (Elt Ideal) (rowsOf (kerG m c)) := by
  show (cfg0.win 6).cut (grid0.coords t) ((dats m 0 c).after 6 t) = _
  rw [after0_6]
  obtain ⟨-, -, e0, e1, -⟩ := idx_facts t
  have ht := t_lt t
  refine funext fun (y : S3136x256.Idx) => ?_
  obtain ⟨r, k, rfl⟩ : ∃ (r : Fin 3136) (k : Fin 256), y = ix2 r k := ⟨y 0, y 1, eq_ix2 y⟩
  have hr := r.isLt
  show out0_6 (F := Ideal) (iblk m c 0 t) (iblk m c 1 t) (iblk m c 2 t) (iblk m c 3 t) (iblk m c 4 t) (iblk m c 5 t) (ix2 r k)
    = rowsOf (kerG m c) (((cfg0.win 6).blk t).view.emb (ix2 r k))
  have he : ((cfg0.win 6).blk t).view.emb (ix2 r k)
      = ix2 (⟨3136 * t.val + r.val, by omega⟩ : Fin 200704) k := by
    funext a
    apply Fin.ext
    match a with
    | ⟨0, _⟩ => show win0_6.index t (0 : Fin 2) * 3136 + 1 * r.val = 3136 * t.val + r.val; rw [e0]; omega
    | ⟨1, _⟩ => show win0_6.index t (1 : Fin 2) * 256 + 1 * k.val = k.val; rw [e1]; omega
  rw [he]
  exact out_block_eq m c t r k _ rfl

/-- An index of the result's rows is in point `t`'s block iff each coordinate is in the block's range on its axis. -/
theorem mem_blk6 (t : Fin cfg0.N) (i : S200704x256.Idx) :
    i ∈ ((cfg0.win 6).blk t).view.set ↔ ∀ a : Fin 2, win0_6.index t a * S3136x256.size a ≤ (i a).val
      ∧ (i a).val < win0_6.index t a * S3136x256.size a + S3136x256.size a := by
  show i ∈ ((View.whole main_v13).slice (win0_6.rect t)).set ↔ _
  rw [View.set_slice_whole, Rect.mem_set_unit]
  exact Iff.rfl

/-- The 64 blocks tile the rows: row `R` is in point `R / 3136`'s block. -/
theorem cover6 (i : S200704x256.Idx) :
    ∃ t : Fin cfg0.N, (cfg0.win 6).flush t = true ∧ i ∈ ((cfg0.win 6).blk t).view.set := by
  have hi0 : (i 0).val < 200704 := (i 0).isLt
  have hi1 : (i 1).val < 256 := (i 1).isLt
  have hN : cfg0.N = 64 := N_0
  let t : Fin cfg0.N := ⟨(i 0).val / 3136, by omega⟩
  obtain ⟨-, -, e0, e1, -⟩ := idx_facts t
  have htv : t.val = (i 0).val / 3136 := rfl
  refine ⟨t, flush0_6 t, ?_⟩
  rw [mem_blk6]
  intro a
  match a with
  | ⟨0, _⟩ =>
    show win0_6.index t (0 : Fin 2) * 3136 ≤ (i 0).val ∧ (i 0).val < win0_6.index t (0 : Fin 2) * 3136 + 3136
    rw [e0, htv]; omega
  | ⟨1, _⟩ =>
    show win0_6.index t (1 : Fin 2) * 256 ≤ (i 1).val ∧ (i 1).val < win0_6.index t (1 : Fin 2) * 256 + 256
    rw [e1]; omega

/-- The result's rows after the region: the specification laid out by rows. -/
theorem final6 (c : Dev nD) : (dats m 0 c).arrAt 6 cfg0.N = rowsOf (kerG m c) :=
  (dats m 0 c).arrAt_eq_of_cover 6 (rowsOf (kerG m c)) (fun t _ => flushed6_eq m c t) cover6

/-! ## The host line after the region, and the run -/

/-- Re-laid as [4096, 49, 256], the rows are the specification. -/
theorem relaid_rows (G : S4096x49x256.Idx → EReal) :
    shapeCast S4096x49x256 (rowsOf G) shapeCasts_S200704x256_S4096x49x256 = G := by
  funext i
  obtain ⟨b, n, j, rfl⟩ : ∃ (b : Fin 4096) (n : Fin 49) (j : Fin 256), i = ix3 b n j := ⟨i 0, i 1, i 2, eq_ix3 i⟩
  refine (Cert.Rank3Layout.shapeCast_flat_abc_apply (rowsOf G) shapeCasts_S200704x256_S4096x49x256 b n j
    (⟨b.val * 49 + n.val, by have := b.isLt; have := n.isLt; omega⟩ : Fin 200704) rfl).trans ?_
  unfold rowsOf
  refine congrArg G ?_
  funext a
  apply Fin.ext
  match a with
  | ⟨0, _⟩ => show (b.val * 49 + n.val) / 49 = b.val; have := n.isLt; omega
  | ⟨1, _⟩ => show (b.val * 49 + n.val) % 49 = n.val; have := n.isLt; omega
  | ⟨2, _⟩ => rfl

/-- What @main's result buffer holds after the host line that follows the region. -/
theorem tail_eq (c : Dev nD) :
    Pipeline.afterTail₀ cfgs (dats m) 0 (V0 m) [hostOps1] c main_v14 = kerG m c := by
  unfold Pipeline.afterTail₀
  show StableHlo.after hostOps1 _ (Proc.devRef .tc main_v14) = _
  after_results
  have hA : Pipeline.withArrays (cfgs 0).spec c (V0 m c) (fun w => (dats m 0 c).arrAt w (cfgs 0).N) (Proc.devRef .tc main_v13)
      = rowsOf (kerG m c) :=
    (Pipeline.withArrays_arr spec0 launch0.win.arr_inj c _ _ 6).trans (final6 m c)
  rw [hA]
  exact relaid_rows (kerG m c)

/-- The kernel's run: every weakly fair execution terminates with the result buffer at the specification of the
    arguments as launched, and the arguments unchanged. -/
theorem run : θ_run defs (onTc (τ := τ) (main (F := Ideal))) ⟨m, fun _ => 0, ρ⟩ fun r => ∀ c : Dev nD,
      r.2.mem ((c.tc : Thread nD τ).loc main_v14) = kerG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.WindowAttn.Ker

end
-- ==== Proof.RefQkv.lean ====
/-
  The reference program's joint projection and scores, read at coordinates. Window b, head h, tokens n m, lane d:
  the projection buffer at (b, n, o) is the specification's qkv of window b's rows; the three slices of its
  transposed reshape are its columns col 0 / 1 / 2 of head h; the scaled-query-against-key contraction is the
  sum over the 32 lanes.
-/
import proofs.«137342_j17575006175665_2_alg».proof.Proof.Gen.ReferenceIdeal.Read
import proofs.«137342_j17575006175665_2_alg».proof.Proof.Spec
import Idealize.ShloMosaic.Lib.ValueIdx

noncomputable section

namespace Cert.WindowAttn.Ref

open Idealize.ShloMosaic Idealize.ShloMosaic.ValueIdx Cert.ReferenceIdeal Cert.ReferenceIdeal.Read Cert.WindowAttn

/-- Window b's rows of the input. -/
abbrev rows (x0 : S4096x49x256.Idx → EReal) (b : Fin 4096) : Fin 49 → Fin 256 → EReal := fun n c => x0 (ix3 b n c)
/-- A rank-2 array by its two coordinates. -/
abbrev mat {p q : Nat} (w : (⟨2, ![p, q]⟩ : Shape).Idx → EReal) : Fin p → Fin q → EReal := fun o c => w (ix2 o c)
/-- A rank-1 array by its coordinate. -/
abbrev vec {p : Nat} (v : (⟨1, ![p]⟩ : Shape).Idx → EReal) : Fin p → EReal := fun o => v (ix1 o)
/-- A rank-3 array by its three coordinates. -/
abbrev cube {p q r : Nat} (t : (⟨3, ![p, q, r]⟩ : Shape).Idx → EReal) : Fin p → Fin q → Fin r → EReal :=
  fun h n m => t (ix3 h n m)

variable (x0 : (⟨S4096x49x256, .f32⟩ : BufTy).Contents (Elt Ideal)) (x1 : (⟨S768x256, .f32⟩ : BufTy).Contents (Elt Ideal))
  (x2 : (⟨S768, .f32⟩ : BufTy).Contents (Elt Ideal))

/-! ## The projection -/

/-- The projection buffer at (b, n, o) is qkv of window b's rows at (n, o). -/
theorem v3_read (b : Fin 4096) (n : Fin 49) (o : Fin 768) :
    val_main_v3 (F := Ideal) x0 x1 x2 (ix3 b n o) = qkv (rows x0 b) (mat x1) (vec x2) n o := by
  rw [val_main_v3_apply, val_main_v0_apply, val_main_v2_apply, val_main_v1_apply]
  have el : ∀ k : Fin 256, lidx_main_v0 (ix3 b n o) k = ix3 b n k := fun k =>
    funext fun a => Fin.ext (by match a with | ⟨0, _⟩ => rfl | ⟨1, _⟩ => rfl | ⟨2, _⟩ => rfl)
  have er : ∀ k : Fin 256, ridx_main_v0 (ix3 b n o) k = ix2 o k := fun k =>
    funext fun a => Fin.ext (by match a with | ⟨0, _⟩ => rfl | ⟨1, _⟩ => rfl)
  have eb : idx_main_v1 (idx_main_v2 (ix3 b n o)) = ix1 o :=
    funext fun a => Fin.ext (by match a with | ⟨0, _⟩ => rfl)
  rw [eb]
  unfold qkv
  show (∑ k : Fin 256, x0 (lidx_main_v0 (ix3 b n o) k) * x1 (ridx_main_v0 (ix3 b n o) k)) + x2 (ix1 o) = _
  refine congrArg (· + x2 (ix1 o)) (Finset.sum_congr rfl fun k _ => ?_)
  rw [el k, er k]

/-! ## Its reshape, transpose and three slices -/

/-- The reshape's flat position of (b, n, s, h, d) has row b, token n and column col s h d. -/
theorem idx_v4 (b : Fin 4096) (n : Fin 49) (s : Fin 3) (h : Fin 8) (d : Fin 32) :
    idx_main_v4 (ix5 b n s h d) = ix3 b n (col s h d) := by
  have hb := b.isLt; have hn := n.isLt; have hs := s.isLt; have hh := h.isLt; have hd := d.isLt
  funext a; refine Fin.ext ?_
  match a with
  | ⟨0, _⟩ =>
    show ((((b.val * 49 + n.val) * 3 + s.val) * 8 + h.val) * 32 + d.val) / 37632 = b.val
    omega
  | ⟨1, _⟩ =>
    show ((((b.val * 49 + n.val) * 3 + s.val) * 8 + h.val) * 32 + d.val) / 768 % 49 = n.val
    omega
  | ⟨2, _⟩ =>
    show ((((b.val * 49 + n.val) * 3 + s.val) * 8 + h.val) * 32 + d.val) % 768 = s.val * 256 + h.val * 32 + d.val
    omega

/-- The transpose moves (s, b, h, n, d) to (b, n, s, h, d). -/
theorem idx_v5 (s : Fin 3) (b : Fin 4096) (h : Fin 8) (n : Fin 49) (d : Fin 32) :
    idx_main_v5 (ix5 s b h n d) = ix5 b n s h d :=
  funext fun a => Fin.ext (by
    match a with | ⟨0, _⟩ => rfl | ⟨1, _⟩ => rfl | ⟨2, _⟩ => rfl | ⟨3, _⟩ => rfl | ⟨4, _⟩ => rfl)

/-- The transposed buffer at (s, b, h, n, d) is the projection at (b, n, col s h d). -/
theorem v5_read (s : Fin 3) (b : Fin 4096) (h : Fin 8) (n : Fin 49) (d : Fin 32) :
    val_main_v5 (F := Ideal) x0 x1 x2 (ix5 s b h n d) = val_main_v3 (F := Ideal) x0 x1 x2 (ix3 b n (col s h d)) := by
  rw [val_main_v5_apply, val_main_v4_apply, idx_v5, idx_v4]

/-- Dropping the leading unit axis: the flat position of (b, h, n, d) is (0, b, h, n, d). -/
theorem idx_unit (b : Fin 4096) (h : Fin 8) (n : Fin 49) (d : Fin 32) :
    idx_main_v7 (ix4 b h n d) = ix5 (0 : Fin 1) b h n d := by
  have hb := b.isLt; have hn := n.isLt; have hh := h.isLt; have hd := d.isLt
  funext a; refine Fin.ext ?_
  match a with
  | ⟨0, _⟩ => rfl
  | ⟨1, _⟩ =>
    show (((b.val * 8 + h.val) * 49 + n.val) * 32 + d.val) / 12544 % 4096 = b.val
    omega
  | ⟨2, _⟩ =>
    show (((b.val * 8 + h.val) * 49 + n.val) * 32 + d.val) / 1568 % 8 = h.val
    omega
  | ⟨3, _⟩ =>
    show (((b.val * 8 + h.val) * 49 + n.val) * 32 + d.val) / 32 % 49 = n.val
    omega
  | ⟨4, _⟩ =>
    show (((b.val * 8 + h.val) * 49 + n.val) * 32 + d.val) % 32 = d.val
    omega

/-- The query slice at (b, h, n, d) is the projection's column col 0 h d of token n. -/
theorem v7_read (b : Fin 4096) (h : Fin 8) (n : Fin 49) (d : Fin 32) :
    val_main_v7 (F := Ideal) x0 x1 x2 (ix4 b h n d) = val_main_v3 (F := Ideal) x0 x1 x2 (ix3 b n (col 0 h d)) := by
  have e6 : idx_main_v6 (ix5 (0 : Fin 1) b h n d) = ix5 (0 : Fin 3) b h n d :=
    funext fun a => Fin.ext (by
      match a with | ⟨0, _⟩ => rfl | ⟨1, _⟩ => rfl | ⟨2, _⟩ => rfl | ⟨3, _⟩ => rfl | ⟨4, _⟩ => rfl)
  rw [val_main_v7_apply, val_main_v6_apply, idx_unit, e6, v5_read]

/-- The key slice at (b, h, m, d) is the projection's column col 1 h d of token m. -/
theorem v9_read (b : Fin 4096) (h : Fin 8) (n : Fin 49) (d : Fin 32) :
    val_main_v9 (F := Ideal) x0 x1 x2 (ix4 b h n d) = val_main_v3 (F := Ideal) x0 x1 x2 (ix3 b n (col 1 h d)) := by
  have e8 : idx_main_v8 (ix5 (0 : Fin 1) b h n d) = ix5 (1 : Fin 3) b h n d :=
    funext fun a => Fin.ext (by
      match a with | ⟨0, _⟩ => rfl | ⟨1, _⟩ => rfl | ⟨2, _⟩ => rfl | ⟨3, _⟩ => rfl | ⟨4, _⟩ => rfl)
  have e9 : idx_main_v9 (ix4 b h n d) = ix5 (0 : Fin 1) b h n d := idx_unit b h n d
  rw [val_main_v9_apply, val_main_v8_apply, e9, e8, v5_read]

/-- The value slice at (b, h, m, d) is the projection's column col 2 h d of token m. -/
theorem v11_read (b : Fin 4096) (h : Fin 8) (n : Fin 49) (d : Fin 32) :
    val_main_v11 (F := Ideal) x0 x1 x2 (ix4 b h n d) = val_main_v3 (F := Ideal) x0 x1 x2 (ix3 b n (col 2 h d)) := by
  have e10 : idx_main_v10 (ix5 (0 : Fin 1) b h n d) = ix5 (2 : Fin 3) b h n d :=
    funext fun a => Fin.ext (by
      match a with | ⟨0, _⟩ => rfl | ⟨1, _⟩ => rfl | ⟨2, _⟩ => rfl | ⟨3, _⟩ => rfl | ⟨4, _⟩ => rfl)
  have e11 : idx_main_v11 (ix4 b h n d) = ix5 (0 : Fin 1) b h n d := idx_unit b h n d
  rw [val_main_v11_apply, val_main_v10_apply, e11, e10, v5_read]

/-! ## The scaled queries against the keys -/

/-- Window b's projected rows. -/
abbrev proj (b : Fin 4096) : Fin 49 → Fin 768 → EReal := qkv (rows x0 b) (mat x1) (vec x2)

/-- The scaled query at (b, h, n, d). -/
theorem v13_read (b : Fin 4096) (h : Fin 8) (n : Fin 49) (d : Fin 32) :
    val_main_v13 (F := Ideal) x0 x1 x2 (ix4 b h n d) = proj x0 x1 x2 b n (col 0 h d) * qscale := by
  rw [val_main_v13_apply, val_main_v12_apply, val_main_cst_apply, v7_read, v3_read]
  rfl

/-- The contraction over the 32 lanes at (b, h, n, m). -/
theorem v14_read (b : Fin 4096) (h : Fin 8) (n m : Fin 49) :
    val_main_v14 (F := Ideal) x0 x1 x2 (ix4 b h n m)
      = ∑ d : Fin 32, (proj x0 x1 x2 b n (col 0 h d) * qscale) * proj x0 x1 x2 b m (col 1 h d) := by
  rw [val_main_v14_apply]
  refine Finset.sum_congr rfl fun d _ => ?_
  have el : lidx_main_v14 (ix4 b h n m) d = ix4 b h n d :=
    funext fun a => Fin.ext (by match a with | ⟨0, _⟩ => rfl | ⟨1, _⟩ => rfl | ⟨2, _⟩ => rfl | ⟨3, _⟩ => rfl)
  have er : ridx_main_v14 (ix4 b h n m) d = ix4 b h m d :=
    funext fun a => Fin.ext (by match a with | ⟨0, _⟩ => rfl | ⟨1, _⟩ => rfl | ⟨2, _⟩ => rfl | ⟨3, _⟩ => rfl)
  rw [el, er, v13_read, v9_read, v3_read]

end Cert.WindowAttn.Ref

end
-- ==== Proof.RefAttn.lean ====
/-
  The reference program's attention and output projection, read at coordinates, and the whole result: window b,
  head h, tokens n m, lane d, channels c j. Scores, the row maximum folded from minus infinity, the exponentials,
  their sum, the weights, the mixed value rows (the contraction's operands in the other order: commutativity of
  the product), the heads side by side, and the output projection: the result at (b, n, j) is the specification's
  window function of window b's rows.
-/
import proofs.«137342_j17575006175665_2_alg».proof.Proof.RefQkv
import Idealize.ShloMosaic.PureOps.Reduce
import Idealize.ShloMosaic.PureOps.Ideal.Laws

noncomputable section

namespace Cert.WindowAttn.Ref

open Idealize.ShloMosaic Idealize.ShloMosaic.ValueIdx Cert.ReferenceIdeal Cert.ReferenceIdeal.Read Cert.WindowAttn

variable (x0 : (⟨S4096x49x256, .f32⟩ : BufTy).Contents (Elt Ideal)) (x1 : (⟨S768x256, .f32⟩ : BufTy).Contents (Elt Ideal))
  (x2 : (⟨S768, .f32⟩ : BufTy).Contents (Elt Ideal)) (x3 : (⟨S256x256, .f32⟩ : BufTy).Contents (Elt Ideal))
  (x4 : (⟨S256, .f32⟩ : BufTy).Contents (Elt Ideal)) (x5 : (⟨S169x8, .f32⟩ : BufTy).Contents (Elt Ideal))
  (x6 : (⟨S49x49, .i32⟩ : BufTy).Contents (Elt Ideal))

/-- The heads' biases: the gathered table, transposed, by its three coordinates. -/
abbrev biasOf : Fin 8 → Fin 49 → Fin 49 → EReal := cube (val_main_v24 (F := Ideal) x5 x6)

/-! ## Scores -/

/-- The score buffer at (b, h, n, m). -/
theorem v27_read (b : Fin 4096) (h : Fin 8) (n m : Fin 49) :
    val_main_v27 (F := Ideal) x0 x1 x2 x5 x6 (ix4 b h n m) = score (proj x0 x1 x2 b) (biasOf x5 x6) h n m := by
  have eb : idx_main_v25 (idx_main_v26 (ix4 b h n m)) = ix3 h n m :=
    funext fun a => Fin.ext (by match a with | ⟨0, _⟩ => rfl | ⟨1, _⟩ => rfl | ⟨2, _⟩ => rfl)
  rw [val_main_v27_apply, v14_read, val_main_v26_apply, val_main_v25_apply, eb]
  rfl

/-! ## The row maximum -/

/-- A fold of max is at least its starting value. -/
theorem max_fold_self {ι : Type} (s : Finset ι) (f : ι → EReal) (c : EReal) :
    max c (s.fold max c f) = s.fold max c f :=
  max_eq_right ((Finset.le_fold_max c).mpr (Or.inl le_rfl))

/-- The host's max-reduce over the last axis at (b, h, n): the fold of max from minus infinity over the row. -/
theorem v28_read (b : Fin 4096) (h : Fin 8) (n : Fin 49) :
    val_main_v28 (F := Ideal) x0 x1 x2 x5 x6 (ix3 b h n) = top (proj x0 x1 x2 b) (biasOf x5 x6) h n := by
  have hr : S4096x8x49x49.Reduces [3] S4096x8x49 := by decide
  unfold val_main_v28
  rw [Host.reduce_eq_fold_single FloatOps.maximumf _ _ Facts₀.reducesTo_S4096x8x49x49_S4096x8x49_d3 hr Facts₀.h_S_]
  have hf : (val_main_v27 (F := Ideal) x0 x1 x2 x5 x6 ∘ hr.lift (ix3 b h n))
      = fun m : Fin 49 => score (proj x0 x1 x2 b) (biasOf x5 x6) h n m := funext fun (m : Fin 49) => by
    have el : hr.lift (ix3 b h n) m = ix4 b h n m :=
      funext fun a => Fin.ext (by match a with | ⟨0, _⟩ => rfl | ⟨1, _⟩ => rfl | ⟨2, _⟩ => rfl | ⟨3, _⟩ => rfl)
    show val_main_v27 (F := Ideal) x0 x1 x2 x5 x6 (hr.lift (ix3 b h n) m) = _
    rw [el, v27_read]
  unfold top
  exact congrArg (fun f => Finset.fold max negInf f (Finset.univ : Finset (Fin 49))) hf

/-- The maximum with the broadcast minus infinity changes nothing: the row's largest score. -/
theorem v30_read (b : Fin 4096) (h : Fin 8) (n : Fin 49) :
    val_main_v30 (F := Ideal) x0 x1 x2 x5 x6 (ix3 b h n) = top (proj x0 x1 x2 b) (biasOf x5 x6) h n := by
  rw [val_main_v30_apply, val_main_v29_apply, val_main_cst_2_apply, v28_read]
  unfold top
  exact max_fold_self _ _ _

/-! ## Exponentials, their sum, the weights -/

/-- The exponential buffer at (b, h, n, m). -/
theorem v34_read (b : Fin 4096) (h : Fin 8) (n m : Fin 49) :
    val_main_v34 (F := Ideal) x0 x1 x2 x5 x6 (ix4 b h n m) = ex (proj x0 x1 x2 b) (biasOf x5 x6) h n m := by
  have eb : idx_main_v31 (idx_main_v32 (ix4 b h n m)) = ix3 b h n :=
    funext fun a => Fin.ext (by match a with | ⟨0, _⟩ => rfl | ⟨1, _⟩ => rfl | ⟨2, _⟩ => rfl)
  rw [val_main_v34_apply, val_main_v33_apply, v27_read, val_main_v32_apply, val_main_v31_apply, eb, v30_read]
  rfl

/-- The row's sum of exponentials at (b, h, n). -/
theorem v35_read (b : Fin 4096) (h : Fin 8) (n : Fin 49) :
    val_main_v35 (F := Ideal) x0 x1 x2 x5 x6 (ix3 b h n) = den (proj x0 x1 x2 b) (biasOf x5 x6) h n := by
  rw [val_main_v35_apply, val_main_cst_3_apply]
  show Ideal.ofBits .f32 0x00000000#32 + _ = _
  rw [Ideal.ofBits_zero_f32, zero_add]
  unfold den
  refine Finset.sum_congr rfl fun m _ => ?_
  have el : idx_main_v35 (ix3 b h n) m = ix4 b h n m :=
    funext fun a => Fin.ext (by match a with | ⟨0, _⟩ => rfl | ⟨1, _⟩ => rfl | ⟨2, _⟩ => rfl | ⟨3, _⟩ => rfl)
  rw [el, v34_read]

/-- The weight buffer at (b, h, n, m). -/
theorem v38_read (b : Fin 4096) (h : Fin 8) (n m : Fin 49) :
    val_main_v38 (F := Ideal) x0 x1 x2 x5 x6 (ix4 b h n m) = prob (proj x0 x1 x2 b) (biasOf x5 x6) h n m := by
  have eb : idx_main_v36 (idx_main_v37 (ix4 b h n m)) = ix3 b h n :=
    funext fun a => Fin.ext (by match a with | ⟨0, _⟩ => rfl | ⟨1, _⟩ => rfl | ⟨2, _⟩ => rfl)
  rw [val_main_v38_apply, v34_read, val_main_v37_apply, val_main_v36_apply, eb, v35_read]
  rfl

/-! ## The mixed value rows and the output projection -/

/-- The value-mixing contraction at (b, h, d, n): its operands are the value rows, then the weights. -/
theorem v39_read (b : Fin 4096) (h : Fin 8) (d : Fin 32) (n : Fin 49) :
    val_main_v39 (F := Ideal) x0 x1 x2 x5 x6 (ix4 b h d n) = mix (proj x0 x1 x2 b) (biasOf x5 x6) h n d := by
  rw [val_main_v39_apply]
  unfold mix
  refine Finset.sum_congr rfl fun m _ => ?_
  have el : lidx_main_v39 (ix4 b h d n) m = ix4 b h m d :=
    funext fun a => Fin.ext (by match a with | ⟨0, _⟩ => rfl | ⟨1, _⟩ => rfl | ⟨2, _⟩ => rfl | ⟨3, _⟩ => rfl)
  have er : ridx_main_v39 (ix4 b h d n) m = ix4 b h n m :=
    funext fun a => Fin.ext (by match a with | ⟨0, _⟩ => rfl | ⟨1, _⟩ => rfl | ⟨2, _⟩ => rfl | ⟨3, _⟩ => rfl)
  rw [el, er, v11_read, v3_read, v38_read]
  exact mul_comm _ _

/-- The heads side by side at (b, n, c): lane c % 32 of head c / 32. -/
theorem v41_read (b : Fin 4096) (n : Fin 49) (c : Fin 256) :
    val_main_v41 (F := Ideal) x0 x1 x2 x5 x6 (ix3 b n c) = mixed (proj x0 x1 x2 b) (biasOf x5 x6) n c := by
  have e : idx_main_v40 (idx_main_v41 (ix3 b n c)) = ix4 b (headOf c) (laneOf c) n := by
    have hb := b.isLt; have hn := n.isLt; have hc := c.isLt
    funext a; refine Fin.ext ?_
    match a with
    | ⟨0, _⟩ =>
      show ((b.val * 49 + n.val) * 256 + c.val) / 12544 = b.val
      omega
    | ⟨1, _⟩ =>
      show ((b.val * 49 + n.val) * 256 + c.val) / 32 % 8 = c.val / 32
      omega
    | ⟨2, _⟩ =>
      show ((b.val * 49 + n.val) * 256 + c.val) % 32 = c.val % 32
      omega
    | ⟨3, _⟩ =>
      show ((b.val * 49 + n.val) * 256 + c.val) / 256 % 49 = n.val
      omega
  rw [val_main_v41_apply, val_main_v40_apply, e, v39_read]
  rfl

/-- The result buffer at (b, n, j). -/
theorem v45_read (b : Fin 4096) (n : Fin 49) (j : Fin 256) :
    val_main_v45 (F := Ideal) x0 x1 x2 x3 x4 x5 x6 (ix3 b n j)
      = win (rows x0 b) (mat x1) (vec x2) (mat x3) (vec x4) (biasOf x5 x6) n j := by
  have eb : idx_main_v43 (idx_main_v44 (ix3 b n j)) = ix1 j :=
    funext fun a => Fin.ext (by match a with | ⟨0, _⟩ => rfl)
  rw [val_main_v45_apply, val_main_v42_apply, val_main_v44_apply, val_main_v43_apply, eb]
  unfold win
  show (∑ k : Fin 256, val_main_v41 (F := Ideal) x0 x1 x2 x5 x6 (lidx_main_v42 (ix3 b n j) k) * x3 (ridx_main_v42 (ix3 b n j) k))
      + x4 (ix1 j) = _
  refine congrArg (· + x4 (ix1 j)) (Finset.sum_congr rfl fun k _ => ?_)
  have el : lidx_main_v42 (ix3 b n j) k = ix3 b n k :=
    funext fun a => Fin.ext (by match a with | ⟨0, _⟩ => rfl | ⟨1, _⟩ => rfl | ⟨2, _⟩ => rfl)
  have er : ridx_main_v42 (ix3 b n j) k = ix2 j k :=
    funext fun a => Fin.ext (by match a with | ⟨0, _⟩ => rfl | ⟨1, _⟩ => rfl)
  rw [el, er, v41_read]

end Cert.WindowAttn.Ref

end
-- ==== Proof.RefValue.lean ====
/-
  The reference program's result as one function of its arguments: at every index (b, n, j) it is the
  specification's window function of window b's rows, the heads' biases being the gathered table as the program
  lays it out (transposed to head, token, token).
-/
import proofs.«137342_j17575006175665_2_alg».proof.Proof.RefAttn

noncomputable section

namespace Cert.WindowAttn.Ref

open Idealize.ShloMosaic Idealize.ShloMosaic.ValueIdx Cert.ReferenceIdeal Cert.ReferenceIdeal.Read Cert.WindowAttn

/-- The reference's result is the specification's function of the arguments and the gathered biases. -/
theorem result_eq
    (x0 : FVec Ideal Cert.ReferenceIdeal.S4096x49x256 .f32) (x1 : FVec Ideal Cert.ReferenceIdeal.S768x256 .f32)
    (x2 : FVec Ideal Cert.ReferenceIdeal.S768 .f32) (x3 : FVec Ideal Cert.ReferenceIdeal.S256x256 .f32)
    (x4 : FVec Ideal Cert.ReferenceIdeal.S256 .f32) (x5 : FVec Ideal Cert.ReferenceIdeal.S169x8 .f32)
    (x6 : IVec Cert.ReferenceIdeal.S49x49 32) :
    Cert.ReferenceIdeal.Read.val_main_v45 (F := Ideal) x0 x1 x2 x3 x4 x5 x6
      = Cert.WindowAttn.G x0 x1 x2 x3 x4 (Cert.ReferenceIdeal.Read.val_main_v24 (F := Ideal) x5 x6) := by
  funext i
  obtain ⟨b, n, j, rfl⟩ : ∃ (b : Fin 4096) (n : Fin 49) (j : Fin 256), i = ix3 b n j := ⟨i 0, i 1, i 2, eq_ix3 i⟩
  exact v45_read x0 x1 x2 x3 x4 x5 x6 b n j

end Cert.WindowAttn.Ref

end
-- ==== Proof.lean ====
/-
  Window attention (49 tokens, 256 channels, 8 heads of 32 lanes, a relative-position bias per head) computed by a tiled
  kernel, 64 windows at a time with the heads written out, against the plain formulation over all windows and heads at once.

  Both programs compute ONE function of the argument arrays, coordinate by coordinate (Proof/Spec.lean): the joint
  query/key/value projection of a window's rows; per head the scaled queries against the keys plus the head's bias; each
  row of scores shifted by its maximum, exponentiated and divided by the sum of the exponentials; the weights against the
  values; the heads side by side through the output projection. Neither program rearranges a sum or moves a factor across
  one, so on the extended reals the two agree with no appeal to finiteness: what differs is only where an entry sits
  (rows 49·b + n against (b, n); channel 32·h + d against (h, d); the transposed weights), the order of the two factors in
  one product, and a maximum with minus infinity that changes nothing.

  The reference's side is Proof/RefValue.lean (over the generated read-at-an-index lemmas of its run); the kernel's side
  is Proof/KerHead.lean (one head at an index), Proof/KerDense.lean (the two projections), Proof/KerBlock.lean (a block's
  result is the window function of its windows' rows) and Proof/KerArray.lean (the 64 blocks tile the result's rows, and
  the host re-lays the rows). The heads' bias slabs are built by the same host operations in both programs, so they enter
  as one array that is never opened. The three frames are the generated ones; the idealization rewrote nothing.
-/
import proofs.«137342_j17575006175665_2_alg».proof.Defs
import proofs.«137342_j17575006175665_2_alg».proof.Proof.Gen.Kernel
import proofs.«137342_j17575006175665_2_alg».proof.Proof.Gen.Kernel.Skeleton
import proofs.«137342_j17575006175665_2_alg».proof.Proof.Gen.Kernel.Launch
import proofs.«137342_j17575006175665_2_alg».proof.Proof.Gen.Kernel.Points
import proofs.«137342_j17575006175665_2_alg».proof.Proof.Gen.Kernel.Frame
import proofs.«137342_j17575006175665_2_alg».proof.Proof.Gen.KernelIdeal
import proofs.«137342_j17575006175665_2_alg».proof.Proof.Gen.KernelIdeal.Skeleton
import proofs.«137342_j17575006175665_2_alg».proof.Proof.Gen.KernelIdeal.Launch
import proofs.«137342_j17575006175665_2_alg».proof.Proof.Gen.KernelIdeal.Points
import proofs.«137342_j17575006175665_2_alg».proof.Proof.Gen.KernelIdeal.Frame
import proofs.«137342_j17575006175665_2_alg».proof.Proof.Gen.ReferenceIdeal
import proofs.«137342_j17575006175665_2_alg».proof.Proof.Gen.Pre_finite_inputs
import proofs.«137342_j17575006175665_2_alg».proof.Proof.Gen.ReferenceIdeal.Run
import proofs.«137342_j17575006175665_2_alg».proof.Proof.Gen.ReferenceIdeal.Read
import proofs.«137342_j17575006175665_2_alg».proof.Proof.KerArray
import proofs.«137342_j17575006175665_2_alg».proof.Proof.RefValue
import Idealize.ShloMosaic.Adequacy
import Idealize.ShloMosaic.Init

noncomputable section

namespace Cert.Proof

open Idealize.ShloMosaic Idealize.SL.Sem

/-- The heads' bias slabs are one array: the two programs build them by the same operations of the table and the index map. -/
theorem bias_same (tbl : FVec Ideal Cert.KernelIdeal.S169x8 .f32) (idx : IVec Cert.KernelIdeal.S49x49 32) :
    Cert.WindowAttn.Ker.biasArr tbl idx = Cert.ReferenceIdeal.Read.val_main_v24 (F := Ideal) tbl idx := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the specification of the arguments, which agree. -/
theorem algebraic : Cert.algebraic_KernelIdeal_ReferenceIdeal := by
  intro m ρ m' ρ' _ hagree
  refine ⟨_, Cert.WindowAttn.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v45_eq, Cert.WindowAttn.Ref.result_eq, a0, a1, a2, a3, a4, a5, a6]
  unfold Cert.WindowAttn.Ker.kerG
  rw [bias_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
